-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S256x512 : Shape := ⟨2, ![256, 512]⟩
abbrev S256 : Shape := ⟨1, ![256]⟩
abbrev S_ : Shape := ⟨0, ![]⟩
abbrev S16384 : Shape := ⟨1, ![16384]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : FVec F S16384x16384 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S16384 .f32 := (fun x v => Host.reduceAdd x v reducesTo_S16384x16384_S16384_d1 h_S_) main_arg1 main_cst_6
  let main_cst_7 : FVec F S_ .f32 := constant S_ .f32 0x3F800000#32
  let main_v20 : FVec F S16384 .f32 := broadcastInDim S16384 ![] bcast_S_S16384 main_cst_7
  let main_v21 : FVec F S16384 .f32 := addf main_v19 main_v20
  let main_cst_8 : FVec F S_ .f32 := constant S_ .f32 0x00000000#32
  let main_v22 : FVec F S16384 .f32 := broadcastInDim S16384 ![] bcast_S_S16384 main_cst_8
  let main_v23 : IVec S16384 1 := cmpf .ogt main_v21 main_v22
  let main_c_9 : IVec S_ 1 := constantI S_ 1 1#1
  let main_v24 : IVec S_ 1 := (fun x v => Host.reduce IntOp.andi x v reducesTo_S16384_S_d0 h_S_) main_v23 main_c_9
  let main_v25 : IVec S_ 1 := andi main_v18 main_v24
  main_v25

def fn {F : FTy → Type} [FloatOps F] (main_arg0 : FVec F S16384x512 .f32) (main_arg1 : FVec F S16384x16384 .f32) (main_arg2 : FVec F S256x512 .f32) (main_arg3 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S16384x512 : Shape := ⟨2, ![16384, 512]⟩
abbrev S16384x16384 : Shape := ⟨2, ![16384, 16384]⟩
abbrev S256x512 : Shape := ⟨2, ![256, 512]⟩
abbrev S256 : Shape := ⟨1, ![256]⟩
abbrev S16384 : Shape := ⟨1, ![16384]⟩
abbrev S256x16384 : Shape := ⟨2, ![256, 16384]⟩
abbrev S512x256 : Shape := ⟨2, ![512, 256]⟩
abbrev S16384x256 : Shape := ⟨2, ![16384, 256]⟩
abbrev S1x256 : Shape := ⟨2, ![1, 256]⟩
abbrev S16384x1 : Shape := ⟨2, ![16384, 1]⟩
abbrev S2048x1024 : Shape := ⟨2, ![2048, 1024]⟩
abbrev S2048x256 : Shape := ⟨2, ![2048, 256]⟩
abbrev S2048x1 : Shape := ⟨2, ![2048, 1]⟩
abbrev S1024x256 : Shape := ⟨2, ![1024, 256]⟩

abbrev nBuf : Space → Nat
  | .hbm => 16
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S256x512, .f32⟩
  | .hbm, ⟨3, _⟩ => ⟨S256, .f32⟩
  | .hbm, ⟨4, _⟩ => ⟨S16384, .f32⟩
  | .hbm, ⟨5, _⟩ => ⟨S512x256, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x256, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S16384x256, .bf16⟩
  | .hbm, ⟨14, _⟩ => ⟨S16384x1, .f32⟩
  | .hbm, ⟨15, _⟩ => ⟨S16384x256, .f32⟩
  | .local _ .vmem, ⟨0, _⟩ => ⟨S256x16384, .f32⟩
  | .local _ .vmem, ⟨1, _⟩ => ⟨S256x16384, .f32⟩
  | .local _ .vmem, ⟨2, _⟩ => ⟨S256, .f32⟩
  | .local _ .vmem, ⟨3, _⟩ => ⟨S256, .f32⟩
  | .local _ .vmem, ⟨4, _⟩ => ⟨S2048x1024, .f32⟩
  | .local _ .vmem, ⟨5, _⟩ => ⟨S2048x1024, .f32⟩
  | .local _ .vmem, ⟨6, _⟩ => ⟨S16384x256, .bf16⟩
  | .local _ .vmem, ⟨7, _⟩ => ⟨S2048x256, .f32⟩
  | .local _ .vmem, ⟨8, _⟩ => ⟨S2048x256, .f32⟩
  | .local _ .vmem, ⟨9, _⟩ => ⟨S2048x1, .f32⟩
  | .local _ .vmem, ⟨10, _⟩ => ⟨S2048x1, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  inb_S256_S256_0 : ∀ a, (![0] : Fin 1 → Nat) a + S256.size a ≤ S256.size a
  h_S256 : 0 < S256.numel
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  h_S1024x256 : 0 < S1024x256.numel
  shapeCasts_S1024x256_S1024x256 : S1024x256.ShapeCasts S1024x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  dot_S16384x512_S512x256_S16384x256_1_0_0_1_n_n_wf : DotDims.WF S16384x512 S512x256 S16384x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S16384.size a
  hwx0_1 : ∀ i : grid0.Coords, EltTy.bits .f32 = 32 ∨ (Rect.block (s := S16384) S256.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x256.size a ≤ S16384x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S16384x256.size a
  hwx1_2 : ∀ i : grid1.Coords, EltTy.bits .f32 = 32 ∨ (Rect.block (s := S16384x256) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S16384x1.size a
  hwx1_3 : ∀ i : grid1.Coords, EltTy.bits .f32 = 32 ∨ (Rect.block (s := S16384x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x256.size a ≤ S16384x256.size a
  hwx1_4 : ∀ i : grid1.Coords, EltTy.bits .f32 = 32 ∨ (Rect.block (s := S16384x256) S2048x256.size (cc1_transform_4 i) (hinb1_4 i)).WholeWords (EltTy.packing .f32)

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg1) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2048x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S256x512 : Shape := ⟨2, ![256, 512]⟩
abbrev S256 : Shape := ⟨1, ![256]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S1x16384 : Shape := ⟨2, ![1, 16384]⟩
abbrev S512x256 : Shape := ⟨2, ![512, 256]⟩
abbrev S16384x256 : Shape := ⟨2, ![16384, 256]⟩
abbrev S1x256 : Shape := ⟨2, ![1, 256]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S256x512, .f32⟩
  | .hbm, ⟨3, _⟩ => ⟨S256, .f32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S_, .f32⟩
  | .hbm, ⟨24, _⟩ => ⟨S16384, .f32⟩
  | .hbm, ⟨25, _⟩ => ⟨S16384x16384, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384x1, .f32⟩
  | .hbm, ⟨30, _⟩ => ⟨S16384x16384, .f32⟩
  | .hbm, ⟨31, _⟩ => ⟨S16384x16384, .f32⟩
  | .hbm, ⟨32, _⟩ => ⟨S1x16384, .f32⟩
  | .hbm, ⟨33, _⟩ => ⟨S16384x16384, .f32⟩
  | .hbm, ⟨34, _⟩ => ⟨S16384x16384, .f32⟩
  | .hbm, ⟨35, _⟩ => ⟨S512x256, .f32⟩
  | .hbm, ⟨36, _⟩ => ⟨S16384x256, .f32⟩
  | .hbm, ⟨37, _⟩ => ⟨S1x256, .f32⟩
  | .hbm, ⟨38, _⟩ => ⟨S16384x256, .f32⟩
  | .hbm, ⟨39, _⟩ => ⟨S16384x256, .f32⟩
  | .hbm, ⟨40, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  reducesTo_S16384x16384_S16384_d1 : S16384x16384.ReducesTo [1] S16384
  h_S_ : 0 < S_.numel
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  transposes_S256x512_S512x256_1_0 : S256x512.Transposes [1, 0] S512x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  scatter_S16384x16384_S16384x2_S16384_n_01_01_1_wf : ScatterDims.WF S16384x16384 S16384x2 S16384 [] [0, 1] [0, 1] 1
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []

variable [Facts₀]

def scatter_S16384x16384_S16384x2_S16384_n_01_01_1 : ScatterDims S16384x16384 S16384x2 S16384 where
  updateWindowDims := []
  insertedWindowDims := [0, 1]
  scatterDimsToOperandDims := [0, 1]
  indexVectorDim := 1
  wf := scatter_S16384x16384_S16384x2_S16384_n_01_01_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.K.Base.lean ====
/-
  The two kernel regions of the word-level program, the parts every later module is stated over (the same text as for
  the idealized program: the two programs differ only in the float instance they are read at).

  Region 0 (the degree kernel) runs on a grid of 64 row tiles: at tile `t` it reads rows `256·t … 256·t+255` of the
  adjacency matrix whole and writes 256 degree scales. Region 1 (the fused product) runs on an 8 × 16 grid of
  (row tile, column tile) points, column tiles innermost: at `(i, k)` it reads the `2048 × 1024` block `(i, k)` of the
  adjacency matrix, the whole scaled feature matrix (once), rows `2048·i …` of the features and of the scales (once per
  `i`), and it writes the output's row block `i` at `k = 15` only. Stated here, at any float instance and at a PARAMETER
  `V` (the buffer contents when a region is entered): each window's block at a point, that an input's staging buffer
  holds its block at every point, the two branch conditions of the fused kernel in closed form (`k = 0`, `k = 15`), where
  its output window is idle, and the staging and scratch memrefs by name.
-/
import proofs.«110735_j22325240004644_2_alg».proof.Proof.Gen.Kernel.Launch
import proofs.«110735_j22325240004644_2_alg».proof.Proof.Gen.Kernel.Skeleton
import proofs.«110735_j22325240004644_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its row tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (unfetched, the block index
    has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## Region 1: the body's two branch conditions -/

/-- The first branch is taken where the column-tile coordinate is 0: the accumulator is zeroed there. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second branch is taken where the column-tile coordinate is 15: the output block is written there. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Region 1: where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second branch is not taken the output window is idle, and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it is taken the window is live. -/
theorem liveAt1_4 : ∀ t : Fin cfg1.N, cond1_1 (grid1.coords t) → cfg1.idle 4 (grid1.coords t) = false := by decide +kernel
/-- Region 0's two windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel

/-! ## The staging and scratch memrefs by name -/

abbrev ms0_0 (t : Fin cfg0.N) : Memref sig .tc .vmem S256x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256 .f32 := win0_1.stage (cfg0.slots t 1)
abbrev hs0_1 (t : Fin cfg0.N) : (ms0_1 t).IsWhole := hstage0_1 ((cfg0.slots t 1).cast nbuf0_1)

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .f32 := win1_4.stage (cfg1.slots t 4)
abbrev hs1_4 (t : Fin cfg1.N) : (ms1_4 t).IsWhole := hstage1_4 ((cfg1.slots t 4).cast nbuf1_4)

/-- The accumulator: a whole scoped buffer of the fused kernel's own. -/
abbrev scM1 : Memref sig .tc .vmem S2048x256 .f32 := Memref.whole cc1_scratch0
/-- The views through which the output block's and the accumulator's contents are stated. -/
abbrev VO1_4 : View sig .tc .vmem S2048x256 .f32 := (Memref.whole cc1_stg4_0 : Memref sig .tc .vmem S2048x256 .f32).view
abbrev VS1 : View sig .tc .vmem S2048x256 .f32 := scM1.view
abbrev VO0_1 : View sig .tc .vmem S256 .f32 := (Memref.whole cc0_stg1_0 : Memref sig .tc .vmem S256 .f32).view

end Cert.Kernel.Fr

end
-- ==== Proof.K.Run0.lean ====
/-
  The degree kernel's body as a triple. On whole staging buffers — the adjacency row tile at contents `x0`, the result's
  at anything — the body runs to the end leaving the tile as it was and the result's buffer at `out0_1 x0`: the 256 values
  `rsqrt (row sum + 1)` of the tile's rows, written by its one whole-buffer store.
-/
import proofs.«110735_j22325240004644_2_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

abbrev r0_in : Rect S256x16384 := Rect.unit (s := S256x16384) ![0, 0] S256x16384.size inb_S256x16384_S256x16384_0_0
abbrev r0_out : Rect S256 := Rect.unit (s := S256) ![0] S256.size inb_S256_S256_0

/-- The result window's staging buffer after the body, from the adjacency tile: its one store as a piece. -/
def out0_1 (x0 : Vec F S256x16384 .f32) : Vec F S256 .f32 :=
  View.canon [⟨r0_out, k0_pay1 (View.ld x0 r0_in)⟩]

/-- The one store covers the buffer. -/
theorem cover0_1 (p0 : Vec F S256 .f32) (y : S256.Idx) :
    ∃ pc ∈ ([⟨r0_out, p0⟩] : List (View.Piece (Elt F) S256 .f32)), y ∈ pc.1.set :=
  View.cover_of_tiled [⟨r0_out, p0⟩] S256.size (by rfl) y

set_option maxHeartbeats 1000000 in
theorem sound_kernel0 (c : Dev nD) (E : Set ℕ) (i : grid0.Coords) (arg1 : Memref sig .tc .vmem S256x16384 .f32) (harg1 : arg1.IsWhole) (arg2 : Memref sig .tc .vmem S256 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.Kernel.Fr

end
-- ==== Proof.K.Run1A.lean ====
/-
  The fused kernel's body at a point with column tile 0 (the first branch taken, the second not): the accumulator is
  zeroed, then the product of the point's adjacency block with rows `0 … 1023` of the scaled features is added to it.
  On whole staging buffers — the four inputs at their contents, the output's at contents handed back untouched, the
  accumulator at anything — the body runs to the end leaving the inputs as they were and the accumulator with the
  pieces its stores wrote (the list the run finds).
-/
import proofs.«110735_j22325240004644_2_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (hc0 : cond1_0 i) (hc1 : ¬cond1_1 i)
    (x0 : Vec F S2048x1024 .f32) (x1 : Vec F S16384x256 .bf16) (x2 : Vec F S2048x256 .f32) (x3 : Vec F S2048x1 .f32) :
    Σ' (L4 : List (View.Piece (Elt F) S2048x256 .f32)), { LS : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg2 harg2 arg3 harg3 arg4 harg4 arg5 harg5 arg6 harg6 arg7 harg7) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Fr

end
-- ==== Proof.K.Run1B.lean ====
/-
  The fused kernel's body at a point with column tile `k`, `0 < k < 15` (neither branch taken): the product of the
  point's adjacency block with rows `1024·k … 1024·k + 1023` of the scaled features is added to the accumulator, which
  holds `xs` when the body starts. The inputs and the output's buffer are left as they were; the accumulator ends with
  the pieces its one store wrote.
-/
import proofs.«110735_j22325240004644_2_alg».proof.Proof.K.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (hc0 : ¬cond1_0 i) (hc1 : ¬cond1_1 i)
    (x0 : Vec F S2048x1024 .f32) (x1 : Vec F S16384x256 .bf16) (x2 : Vec F S2048x256 .f32) (x3 : Vec F S2048x1 .f32) (xs : Vec F S2048x256 .f32) :
    Σ' (L4 : List (View.Piece (Elt F) S2048x256 .f32)), { LS : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg2 harg2 arg3 harg3 arg4 harg4 arg5 harg5 arg6 harg6 arg7 harg7) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Fr

end
-- ==== Proof.K.Run1C.lean ====
/-
  The fused kernel's body at a point with column tile 15 (the first branch not taken, the second taken): the last product
  is added to the accumulator, which holds `xs` when the body starts, and the output's buffer is written with
  `d · acc + (d · d) · h` of the point's scale column `d`, the finished accumulator and the point's feature rows `h`. The
  inputs are left as they were; the accumulator and the output's buffer end with the pieces their stores wrote.
-/
import proofs.«110735_j22325240004644_2_alg».proof.Proof.K.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (hc0 : ¬cond1_0 i) (hc1 : cond1_1 i)
    (x0 : Vec F S2048x1024 .f32) (x1 : Vec F S16384x256 .bf16) (x2 : Vec F S2048x256 .f32) (x3 : Vec F S2048x1 .f32) (xs : Vec F S2048x256 .f32) :
    Σ' (L4 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg2 harg2 arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Fr

end
-- ==== Proof.K.Data.lean ====
/-
  The proof data of the two kernel regions and their body obligations, at any float instance and at a PARAMETER `V` (the
  buffer contents when a region is entered).

  Region 0: after the body at row tile `t` the adjacency window's buffer holds its tile and the result's buffer the 256
  degree scales of the tile's rows. Region 1: the accumulator is CARRIED from point to point — after point `n` it holds
  what the body at `n` left (`outsAt1`, second component): zeroed-then-added at a point with column tile 0, the previous
  contents plus the point's product elsewhere — so the region's invariant names it from the second point on; the output
  window is idle except at column tile 15, where its buffer is written from the finished accumulator.
-/
import proofs.«110735_j22325240004644_2_alg».proof.Proof.K.Run0
import proofs.«110735_j22325240004644_2_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

/-- A buffer of core `c` held whole at some contents. -/
abbrev anyAt (c : Dev nD) (b : Ref sig .tc) : sProp 𝕄 :=
  iprop(∃ f : Buf (Elt F) ((c : Thread nD τ).loc b), ((c : Thread nD τ).loc b) ↦{fullShare} f)

/-- Region 1's class invariant spelt out: region 0's four staging buffers and the accumulator at anything, and the
    generator register at some state. -/
theorem PhiA1_eq (c : Dev nD) :
    (Pipeline.ΦA spec1 c : sProp 𝕄)
      = iprop((anyAt c cc0_stg0_0 ∗ anyAt c cc0_stg0_1 ∗ anyAt c cc0_stg1_0 ∗ anyAt c cc0_stg1_1 ∗ (∃ d, owns (c : Thread nD τ) scM1 fullShare d)) ∗ (∃ r, prngReg c r)) := by
  unfold Pipeline.ΦA; rw [scopedRest1_eq]; simp only [scM1, owns_whole]; try rfl

section Regions
variable (V : (c : Dev nD) → (b : Ref sig .tc) → Buf (Elt F) ((c : Thread nD τ).loc b))

/-! # Region 0 -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # Region 1 -/

/-- The body's run at point `t`, on the point's staging memrefs and input blocks, case by case. -/
abbrev runA (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) scM1 (Memref.isWhole_whole _) h0 h1
    (iblk1 V c 0 t) (iblk1 V c 1 t) (iblk1 V c 2 t) (iblk1 V c 3 t)
abbrev runB (c : Dev nD) (t : Fin cfg1.N) (h0 : ¬cond1_0 (grid1.coords t)) (h1 : ¬cond1_1 (grid1.coords t)) (xs : Vec F S2048x256 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1 (Memref.isWhole_whole _) h0 h1
    (iblk1 V c 0 t) (iblk1 V c 1 t) (iblk1 V c 2 t) (iblk1 V c 3 t) xs
abbrev runC (c : Dev nD) (t : Fin cfg1.N) (h0 : ¬cond1_0 (grid1.coords t)) (h1 : cond1_1 (grid1.coords t)) (xs : Vec F S2048x256 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1 (Memref.isWhole_whole _) h0 h1
    (iblk1 V c 0 t) (iblk1 V c 1 t) (iblk1 V c 2 t) (iblk1 V c 3 t) xs

/-- What each case leaves in the accumulator: its pieces read back. -/
def soutA (c : Dev nD) (t : Fin cfg1.N) (h0 : cond1_0 (grid1.coords t)) (h1 : ¬cond1_1 (grid1.coords t)) : Vec F S2048x256 .f32 :=
  VS1.read (Elt F) (VS1.writes (Elt F) VS1.junk (runA V c t h0 h1).2.1)
def soutB (c : Dev nD) (t : Fin cfg1.N) (h0 : ¬cond1_0 (grid1.coords t)) (h1 : ¬cond1_1 (grid1.coords t)) (xs : Vec F S2048x256 .f32) : Vec F S2048x256 .f32 :=
  VS1.read (Elt F) (VS1.writes (Elt F) VS1.junk (runB V c t h0 h1 xs).2.1)
def soutC (c : Dev nD) (t : Fin cfg1.N) (h0 : ¬cond1_0 (grid1.coords t)) (h1 : cond1_1 (grid1.coords t)) (xs : Vec F S2048x256 .f32) : Vec F S2048x256 .f32 :=
  VS1.read (Elt F) (VS1.writes (Elt F) VS1.junk (runC V c t h0 h1 xs).2.1)
/-- What the last case leaves in the output window's buffer. -/
def outC (c : Dev nD) (t : Fin cfg1.N) (h0 : ¬cond1_0 (grid1.coords t)) (h1 : cond1_1 (grid1.coords t)) (xs : Vec F S2048x256 .f32) : Vec F S2048x256 .f32 :=
  VO1_4.read (Elt F) (VO1_4.writes (Elt F) VO1_4.junk (runC V c t h0 h1 xs).1)
/-- A placeholder for the output window's buffer where it is idle (never consulted). -/
def idleOut : Vec F S2048x256 .f32 := VO1_4.read (Elt F) (VO1_4.writes (Elt F) VO1_4.junk [])

/-- Each case's stores cover the accumulator; the last case's store covers the output buffer. -/
theorem scoverA (c : Dev nD) (t : Fin cfg1.N) (h0 : cond1_0 (grid1.coords t)) (h1 : ¬cond1_1 (grid1.coords t)) (y : S2048x256.Idx) :
    ∃ pc ∈ (runA V c t h0 h1).2.1, y ∈ pc.1.set :=
  View.cover_of_tiledL (runA V c t h0 h1).2.1 S2048x256.size (by sl_kernel_rfl) y
theorem scoverB (c : Dev nD) (t : Fin cfg1.N) (h0 : ¬cond1_0 (grid1.coords t)) (h1 : ¬cond1_1 (grid1.coords t)) (xs : Vec F S2048x256 .f32) (y : S2048x256.Idx) :
    ∃ pc ∈ (runB V c t h0 h1 xs).2.1, y ∈ pc.1.set :=
  View.cover_of_tiledL (runB V c t h0 h1 xs).2.1 S2048x256.size (by sl_kernel_rfl) y
theorem scoverC (c : Dev nD) (t : Fin cfg1.N) (h0 : ¬cond1_0 (grid1.coords t)) (h1 : cond1_1 (grid1.coords t)) (xs : Vec F S2048x256 .f32) (y : S2048x256.Idx) :
    ∃ pc ∈ (runC V c t h0 h1 xs).2.1, y ∈ pc.1.set :=
  View.cover_of_tiledL (runC V c t h0 h1 xs).2.1 S2048x256.size (by sl_kernel_rfl) y
theorem coverC (c : Dev nD) (t : Fin cfg1.N) (h0 : ¬cond1_0 (grid1.coords t)) (h1 : cond1_1 (grid1.coords t)) (xs : Vec F S2048x256 .f32) (y : S2048x256.Idx) :
    ∃ pc ∈ (runC V c t h0 h1 xs).1, y ∈ pc.1.set :=
  View.cover_of_tiledL (runC V c t h0 h1 xs).1 S2048x256.size (by sl_kernel_rfl) y

/-- THE ACCUMULATION. What the output window's buffer and the accumulator hold after the body at position `n`: the case
    the column tile `n % 16` selects, run at the point's blocks, the accumulator at what the point before left. -/
def outsAt1 (c : Dev nD) : (n : ℕ) → n < cfg1.N → Vec F S2048x256 .f32 × Vec F S2048x256 .f32
  | 0, hn => (idleOut, soutA V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 16 = 0 then
      if h1 : (n + 1) % 16 = 15 then
        False.elim (by omega)
      else
        (idleOut, soutA V c ⟨n + 1, hn⟩ ((hcond1_0 ⟨n + 1, hn⟩).mpr h0) (fun h => h1 ((hcond1_1 ⟨n + 1, hn⟩).mp h)))
    else
      if h1 : (n + 1) % 16 = 15 then
        (outC V c ⟨n + 1, hn⟩ (fun h => h0 ((hcond1_0 ⟨n + 1, hn⟩).mp h)) ((hcond1_1 ⟨n + 1, hn⟩).mpr h1) (outsAt1 c n (Nat.lt_of_succ_lt hn)).2,
          soutC V c ⟨n + 1, hn⟩ (fun h => h0 ((hcond1_0 ⟨n + 1, hn⟩).mp h)) ((hcond1_1 ⟨n + 1, hn⟩).mpr h1) (outsAt1 c n (Nat.lt_of_succ_lt hn)).2)
      else
        (idleOut, soutB V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 16 = 0) (h1 : ¬t.val % 16 = 15) :
    outsAt1 V c t.val t.isLt = (idleOut, soutA V c t ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut, soutB V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC V c t (fun h => h0 ((hcond1_0 t).mp h)) ((hcond1_1 t).mpr h1) (outsAt1 V c (t.val - 1) (Nat.lt_of_le_of_lt (Nat.sub_le _ _) t.isLt)).2,
      soutC V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the same with the accumulator at what the point before left in it. -/
def PhiS (c : Dev nD) : (n : ℕ) → n ≤ cfg1.N → sProp 𝕄
  | 0, _ => Pipeline.ΦA spec1 c
  | n + 1, hn => iprop((anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop((anyAt c cc0_stg0_0 ∗ anyAt c cc0_stg0_1 ∗ anyAt c cc0_stg1_0 ∗ anyAt c cc0_stg1_1 ∗ owns (c : Thread nD τ) scM1 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Regions

end Cert.Kernel.Fr

end
-- ==== Proof.K.Body1.lean ====
/-
  The fused kernel's body obligation at every grid point. The inputs' staging buffers hold their blocks; the column tile
  `t % 16` says which of the three cases the point is in; the invariant hands the body the accumulator — at anything at
  the very first point, at what the point before left otherwise — and takes it back at this point's contents; where the
  second branch is not taken the output window is idle and its buffer is handed back untouched. Also: the invariant
  before the first point is the class's, and after any later point it gives the class's back (the accumulator's named
  contents forgotten).
-/
import proofs.«110735_j22325240004644_2_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold soutA; (try dsimp only)
    by_cases hz : t.val = 0
    · rw [PhiS_castSucc V c t, PhiS_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverA V c t _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverA V c t _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC soutC; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runC V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverC V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold soutB; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runB V c t (fun h => h0 ((hcond1_0 t).mp h)) (fun h => h1 ((hcond1_1 t).mp h)) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverB V c t _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi_in1 (c : Dev nD) : (dat1 V c).Φ 0 = Pipeline.ΦA spec1 c := rfl

/-- After any point but the first the invariant gives the class's back. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS0⟩, Hg⟩
  isplitr [Hg]
  · isplitl [Ha]; · iexact Ha
    isplitl [Hb]; · iexact Hb
    isplitl [Hc]; · iexact Hc
    isplitl [Hd]; · iexact Hd
    iexists _; iexact HS0
  iexact Hg

theorem Phi_last1 (c : Dev nD) : (dat1 V c).Φ (Fin.last cfg1.N) ⊢ Pipeline.ΦA spec1 c :=
  Phi_out1 V c _ (by rw [Fin.val_last]; have : cfg1.N = 128 := N_1; omega)

end Regions

end Cert.Kernel.Fr

end
-- ==== Proof.K.Main.lean ====
/-
  The run of the whole program. Its three items in order: region 0 (the degree kernel), ten host operations (the linear
  layer `x·Wᵀ + b`, the features scaled by the degree column and cast, the degree column itself), region 1 (the fused
  product). The buffer contents at each boundary are a fold from the launch memory: region 0 changes only its result
  array (to what its write-backs leave), the host stretch only its own results, region 1 only its result array. Every
  weakly fair execution terminates without a fault, and at the end every unscoped buffer holds the last boundary's
  contents: the four arguments what they were launched with, the result what region 1's write-backs leave.
-/
import proofs.«110735_j22325240004644_2_alg».proof.Proof.K.Body1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Fr

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- After the ten host operations: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W2_of_ne m ρ c main_arg0 (by decide)
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W2_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W2_of_ne m ρ c main_arg3 (by decide)
    _ = m ((c : Thread nD τ).loc main_arg3) := rfl

/-- The adjacency matrix is an input window's array of both regions: neither writes it back. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl

/-- The result array ends at what region 1's write-backs leave. -/
theorem W4_main_v11 (c : Dev nD) : W4 m ρ c (Proc.devRef .tc main_v11) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine ((show (pdats m ρ 0 c).Φ (Fin.last _) ⊢ Pipeline.ΦA spec0 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m ρ 1 c).Φ (Fin.last _) ⊢ Pipeline.ΦA spec1 c from Phi_last1 (V3 m ρ) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution terminates, nothing faulting, and every unscoped buffer ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE RESULT: the result array ends at what region 1's write-backs leave, beside the frame. -/
theorem run_result : θ_run defs (onTc (τ := τ) (main (F := F))) ⟨m, fun _ => 0, ρ⟩ (fun r => ∀ c : Dev nD,
      r.2.mem ((c.tc : Thread nD τ).loc main_v11) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W4_main_v11 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Fr

end
-- ==== Proof.KI.Base.lean ====
/-
  The two kernel regions of the idealized program, the parts every later module is stated over.

  Region 0 (the degree kernel) runs on a grid of 64 row tiles: at tile `t` it reads rows `256·t … 256·t+255` of the
  adjacency matrix whole and writes 256 degree scales. Region 1 (the fused product) runs on an 8 × 16 grid of
  (row tile, column tile) points, column tiles innermost: at `(i, k)` it reads the `2048 × 1024` block `(i, k)` of the
  adjacency matrix, the whole scaled feature matrix (once), rows `2048·i …` of the features and of the scales (once per
  `i`), and it writes the output's row block `i` at `k = 15` only. Stated here, at any float instance and at a PARAMETER
  `V` (the buffer contents when a region is entered): each window's block at a point, that an input's staging buffer
  holds its block at every point, the two branch conditions of the fused kernel in closed form (`k = 0`, `k = 15`), where
  its output window is idle, and the staging and scratch memrefs by name.
-/
import proofs.«110735_j22325240004644_2_alg».proof.Proof.Gen.KernelIdeal.Launch
import proofs.«110735_j22325240004644_2_alg».proof.Proof.Gen.KernelIdeal.Skeleton
import proofs.«110735_j22325240004644_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its row tile at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not (unfetched, the block index
    has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## Region 1: the body's two branch conditions -/

/-- The first branch is taken where the column-tile coordinate is 0: the accumulator is zeroed there. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second branch is taken where the column-tile coordinate is 15: the output block is written there. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Region 1: where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second branch is not taken the output window is idle, and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it is taken the window is live. -/
theorem liveAt1_4 : ∀ t : Fin cfg1.N, cond1_1 (grid1.coords t) → cfg1.idle 4 (grid1.coords t) = false := by decide +kernel
/-- Region 0's two windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel

/-! ## The staging and scratch memrefs by name -/

abbrev ms0_0 (t : Fin cfg0.N) : Memref sig .tc .vmem S256x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256 .f32 := win0_1.stage (cfg0.slots t 1)
abbrev hs0_1 (t : Fin cfg0.N) : (ms0_1 t).IsWhole := hstage0_1 ((cfg0.slots t 1).cast nbuf0_1)

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x256 .f32 := win1_4.stage (cfg1.slots t 4)
abbrev hs1_4 (t : Fin cfg1.N) : (ms1_4 t).IsWhole := hstage1_4 ((cfg1.slots t 4).cast nbuf1_4)

/-- The accumulator: a whole scoped buffer of the fused kernel's own. -/
abbrev scM1 : Memref sig .tc .vmem S2048x256 .f32 := Memref.whole cc1_scratch0
/-- The views through which the output block's and the accumulator's contents are stated. -/
abbrev VO1_4 : View sig .tc .vmem S2048x256 .f32 := (Memref.whole cc1_stg4_0 : Memref sig .tc .vmem S2048x256 .f32).view
abbrev VS1 : View sig .tc .vmem S2048x256 .f32 := scM1.view
abbrev VO0_1 : View sig .tc .vmem S256 .f32 := (Memref.whole cc0_stg1_0 : Memref sig .tc .vmem S256 .f32).view

end Cert.KernelIdeal.Fr

end
-- ==== Proof.KI.Run0.lean ====
/-
  The degree kernel's body as a triple. On whole staging buffers — the adjacency row tile at contents `x0`, the result's
  at anything — the body runs to the end leaving the tile as it was and the result's buffer at `out0_1 x0`: the 256 values
  `rsqrt (row sum + 1)` of the tile's rows, written by its one whole-buffer store.
-/
import proofs.«110735_j22325240004644_2_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

abbrev r0_in : Rect S256x16384 := Rect.unit (s := S256x16384) ![0, 0] S256x16384.size inb_S256x16384_S256x16384_0_0
abbrev r0_out : Rect S256 := Rect.unit (s := S256) ![0] S256.size inb_S256_S256_0

/-- The result window's staging buffer after the body, from the adjacency tile: its one store as a piece. -/
def out0_1 (x0 : Vec F S256x16384 .f32) : Vec F S256 .f32 :=
  View.canon [⟨r0_out, k0_pay1 (View.ld x0 r0_in)⟩]

/-- The one store covers the buffer. -/
theorem cover0_1 (p0 : Vec F S256 .f32) (y : S256.Idx) :
    ∃ pc ∈ ([⟨r0_out, p0⟩] : List (View.Piece (Elt F) S256 .f32)), y ∈ pc.1.set :=
  View.cover_of_tiled [⟨r0_out, p0⟩] S256.size (by rfl) y

set_option maxHeartbeats 1000000 in
theorem sound_kernel0 (c : Dev nD) (E : Set ℕ) (i : grid0.Coords) (arg1 : Memref sig .tc .vmem S256x16384 .f32) (harg1 : arg1.IsWhole) (arg2 : Memref sig .tc .vmem S256 .f32) (harg2 : arg2.IsWhole)
    (x0 : Vec F S256x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.KernelIdeal.Fr

end
-- ==== Proof.KI.Run1A.lean ====
/-
  The fused kernel's body at a point with column tile 0 (the first branch taken, the second not): the accumulator is
  zeroed, then the product of the point's adjacency block with rows `0 … 1023` of the scaled features is added to it.
  On whole staging buffers — the four inputs at their contents, the output's at contents handed back untouched, the
  accumulator at anything — the body runs to the end leaving the inputs as they were and the accumulator with the
  pieces its stores wrote (the list the run finds).
-/
import proofs.«110735_j22325240004644_2_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (hc0 : cond1_0 i) (hc1 : ¬cond1_1 i)
    (x0 : Vec F S2048x1024 .f32) (x1 : Vec F S16384x256 .bf16) (x2 : Vec F S2048x256 .f32) (x3 : Vec F S2048x1 .f32) :
    Σ' (L4 : List (View.Piece (Elt F) S2048x256 .f32)), { LS : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg2 harg2 arg3 harg3 arg4 harg4 arg5 harg5 arg6 harg6 arg7 harg7) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Fr

end
-- ==== Proof.KI.Run1B.lean ====
/-
  The fused kernel's body at a point with column tile `k`, `0 < k < 15` (neither branch taken): the product of the
  point's adjacency block with rows `1024·k … 1024·k + 1023` of the scaled features is added to the accumulator, which
  holds `xs` when the body starts. The inputs and the output's buffer are left as they were; the accumulator ends with
  the pieces its one store wrote.
-/
import proofs.«110735_j22325240004644_2_alg».proof.Proof.KI.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (hc0 : ¬cond1_0 i) (hc1 : ¬cond1_1 i)
    (x0 : Vec F S2048x1024 .f32) (x1 : Vec F S16384x256 .bf16) (x2 : Vec F S2048x256 .f32) (x3 : Vec F S2048x1 .f32) (xs : Vec F S2048x256 .f32) :
    Σ' (L4 : List (View.Piece (Elt F) S2048x256 .f32)), { LS : List (View.Piece (Elt F) S2048x256 .f32) //
      ∀ (xi4 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg2 harg2 arg3 harg3 arg4 harg4 arg5 harg5 arg6 harg6 arg7 harg7) K } := by
  refine ⟨[], ?_, fun xi4 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Fr

end
-- ==== Proof.KI.Run1C.lean ====
/-
  The fused kernel's body at a point with column tile 15 (the first branch not taken, the second taken): the last product
  is added to the accumulator, which holds `xs` when the body starts, and the output's buffer is written with
  `d · acc + (d · d) · h` of the point's scale column `d`, the finished accumulator and the point's feature rows `h`. The
  inputs are left as they were; the accumulator and the output's buffer end with the pieces their stores wrote.
-/
import proofs.«110735_j22325240004644_2_alg».proof.Proof.KI.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S2048x1024 .f32) (harg2 : arg2.IsWhole) (arg3 : Memref sig .tc .vmem S16384x256 .bf16) (harg3 : arg3.IsWhole) (arg4 : Memref sig .tc .vmem S2048x256 .f32) (harg4 : arg4.IsWhole) (arg5 : Memref sig .tc .vmem S2048x1 .f32) (harg5 : arg5.IsWhole) (arg6 : Memref sig .tc .vmem S2048x256 .f32) (harg6 : arg6.IsWhole) (arg7 : Memref sig .tc .vmem S2048x256 .f32) (harg7 : arg7.IsWhole) (hc0 : ¬cond1_0 i) (hc1 : cond1_1 i)
    (x0 : Vec F S2048x1024 .f32) (x1 : Vec F S16384x256 .bf16) (x2 : Vec F S2048x256 .f32) (x3 : Vec F S2048x1 .f32) (xs : Vec F S2048x256 .f32) :
    Σ' (L4 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__matmul_kernel i arg2 harg2 arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Fr

end
-- ==== Proof.KI.Data.lean ====
/-
  The proof data of the two kernel regions and their body obligations, at any float instance and at a PARAMETER `V` (the
  buffer contents when a region is entered).

  Region 0: after the body at row tile `t` the adjacency window's buffer holds its tile and the result's buffer the 256
  degree scales of the tile's rows. Region 1: the accumulator is CARRIED from point to point — after point `n` it holds
  what the body at `n` left (`outsAt1`, second component): zeroed-then-added at a point with column tile 0, the previous
  contents plus the point's product elsewhere — so the region's invariant names it from the second point on; the output
  window is idle except at column tile 15, where its buffer is written from the finished accumulator.
-/
import proofs.«110735_j22325240004644_2_alg».proof.Proof.KI.Run0
import proofs.«110735_j22325240004644_2_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

/-- A buffer of core `c` held whole at some contents. -/
abbrev anyAt (c : Dev nD) (b : Ref sig .tc) : sProp 𝕄 :=
  iprop(∃ f : Buf (Elt F) ((c : Thread nD τ).loc b), ((c : Thread nD τ).loc b) ↦{fullShare} f)

/-- Region 1's class invariant spelt out: region 0's four staging buffers and the accumulator at anything, and the
    generator register at some state. -/
theorem PhiA1_eq (c : Dev nD) :
    (Pipeline.ΦA spec1 c : sProp 𝕄)
      = iprop((anyAt c cc0_stg0_0 ∗ anyAt c cc0_stg0_1 ∗ anyAt c cc0_stg1_0 ∗ anyAt c cc0_stg1_1 ∗ (∃ d, owns (c : Thread nD τ) scM1 fullShare d)) ∗ (∃ r, prngReg c r)) := by
  unfold Pipeline.ΦA; rw [scopedRest1_eq]; simp only [scM1, owns_whole]; try rfl

section Regions
variable (V : (c : Dev nD) → (b : Ref sig .tc) → Buf (Elt F) ((c : Thread nD τ).loc b))

/-! # Region 0 -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! # Region 1 -/

/-- The body's run at point `t`, on the point's staging memrefs and input blocks, case by case. -/
abbrev runA (c : Dev nD) (t : Fin cfg1.N) (h0 : cond1_0 (grid1.coords t)) (h1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) scM1 (Memref.isWhole_whole _) h0 h1
    (iblk1 V c 0 t) (iblk1 V c 1 t) (iblk1 V c 2 t) (iblk1 V c 3 t)
abbrev runB (c : Dev nD) (t : Fin cfg1.N) (h0 : ¬cond1_0 (grid1.coords t)) (h1 : ¬cond1_1 (grid1.coords t)) (xs : Vec F S2048x256 .f32) :=
  kernelRun1_B (F := F) c (grid1.coords t) (ms1_0 t) (hs1_0 t) (ms1_1 t) (hs1_1 t) (ms1_2 t) (hs1_2 t) (ms1_3 t) (hs1_3 t) (ms1_4 t) (hs1_4 t) scM1 (Memref.isWhole_whole _) h0 h1
    (iblk1 V c 0 t) (iblk1 V c 1 t) (iblk1 V c 2 t) (iblk1 V c 3 t) xs
abbrev runC (c : Dev nD) (t : Fin cfg1.N) (h0 : ¬cond1_0 (grid1.coords t)) (h1 : cond1_1 (grid1.coords t)) (xs : Vec F S2048x256 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1 (Memref.isWhole_whole _) h0 h1
    (iblk1 V c 0 t) (iblk1 V c 1 t) (iblk1 V c 2 t) (iblk1 V c 3 t) xs

/-- What each case leaves in the accumulator: its pieces read back. -/
def soutA (c : Dev nD) (t : Fin cfg1.N) (h0 : cond1_0 (grid1.coords t)) (h1 : ¬cond1_1 (grid1.coords t)) : Vec F S2048x256 .f32 :=
  VS1.read (Elt F) (VS1.writes (Elt F) VS1.junk (runA V c t h0 h1).2.1)
def soutB (c : Dev nD) (t : Fin cfg1.N) (h0 : ¬cond1_0 (grid1.coords t)) (h1 : ¬cond1_1 (grid1.coords t)) (xs : Vec F S2048x256 .f32) : Vec F S2048x256 .f32 :=
  VS1.read (Elt F) (VS1.writes (Elt F) VS1.junk (runB V c t h0 h1 xs).2.1)
def soutC (c : Dev nD) (t : Fin cfg1.N) (h0 : ¬cond1_0 (grid1.coords t)) (h1 : cond1_1 (grid1.coords t)) (xs : Vec F S2048x256 .f32) : Vec F S2048x256 .f32 :=
  VS1.read (Elt F) (VS1.writes (Elt F) VS1.junk (runC V c t h0 h1 xs).2.1)
/-- What the last case leaves in the output window's buffer. -/
def outC (c : Dev nD) (t : Fin cfg1.N) (h0 : ¬cond1_0 (grid1.coords t)) (h1 : cond1_1 (grid1.coords t)) (xs : Vec F S2048x256 .f32) : Vec F S2048x256 .f32 :=
  VO1_4.read (Elt F) (VO1_4.writes (Elt F) VO1_4.junk (runC V c t h0 h1 xs).1)
/-- A placeholder for the output window's buffer where it is idle (never consulted). -/
def idleOut : Vec F S2048x256 .f32 := VO1_4.read (Elt F) (VO1_4.writes (Elt F) VO1_4.junk [])

/-- Each case's stores cover the accumulator; the last case's store covers the output buffer. -/
theorem scoverA (c : Dev nD) (t : Fin cfg1.N) (h0 : cond1_0 (grid1.coords t)) (h1 : ¬cond1_1 (grid1.coords t)) (y : S2048x256.Idx) :
    ∃ pc ∈ (runA V c t h0 h1).2.1, y ∈ pc.1.set :=
  View.cover_of_tiledL (runA V c t h0 h1).2.1 S2048x256.size (by sl_kernel_rfl) y
theorem scoverB (c : Dev nD) (t : Fin cfg1.N) (h0 : ¬cond1_0 (grid1.coords t)) (h1 : ¬cond1_1 (grid1.coords t)) (xs : Vec F S2048x256 .f32) (y : S2048x256.Idx) :
    ∃ pc ∈ (runB V c t h0 h1 xs).2.1, y ∈ pc.1.set :=
  View.cover_of_tiledL (runB V c t h0 h1 xs).2.1 S2048x256.size (by sl_kernel_rfl) y
theorem scoverC (c : Dev nD) (t : Fin cfg1.N) (h0 : ¬cond1_0 (grid1.coords t)) (h1 : cond1_1 (grid1.coords t)) (xs : Vec F S2048x256 .f32) (y : S2048x256.Idx) :
    ∃ pc ∈ (runC V c t h0 h1 xs).2.1, y ∈ pc.1.set :=
  View.cover_of_tiledL (runC V c t h0 h1 xs).2.1 S2048x256.size (by sl_kernel_rfl) y
theorem coverC (c : Dev nD) (t : Fin cfg1.N) (h0 : ¬cond1_0 (grid1.coords t)) (h1 : cond1_1 (grid1.coords t)) (xs : Vec F S2048x256 .f32) (y : S2048x256.Idx) :
    ∃ pc ∈ (runC V c t h0 h1 xs).1, y ∈ pc.1.set :=
  View.cover_of_tiledL (runC V c t h0 h1 xs).1 S2048x256.size (by sl_kernel_rfl) y

/-- THE ACCUMULATION. What the output window's buffer and the accumulator hold after the body at position `n`: the case
    the column tile `n % 16` selects, run at the point's blocks, the accumulator at what the point before left. -/
def outsAt1 (c : Dev nD) : (n : ℕ) → n < cfg1.N → Vec F S2048x256 .f32 × Vec F S2048x256 .f32
  | 0, hn => (idleOut, soutA V c ⟨0, hn⟩ ((hcond1_0 ⟨0, hn⟩).mpr (Nat.zero_mod _)) (fun h => (fun h => by (try dsimp only at h); omega) ((hcond1_1 ⟨0, hn⟩).mp h)))
  | n + 1, hn =>
    if h0 : (n + 1) % 16 = 0 then
      if h1 : (n + 1) % 16 = 15 then
        False.elim (by omega)
      else
        (idleOut, soutA V c ⟨n + 1, hn⟩ ((hcond1_0 ⟨n + 1, hn⟩).mpr h0) (fun h => h1 ((hcond1_1 ⟨n + 1, hn⟩).mp h)))
    else
      if h1 : (n + 1) % 16 = 15 then
        (outC V c ⟨n + 1, hn⟩ (fun h => h0 ((hcond1_0 ⟨n + 1, hn⟩).mp h)) ((hcond1_1 ⟨n + 1, hn⟩).mpr h1) (outsAt1 c n (Nat.lt_of_succ_lt hn)).2,
          soutC V c ⟨n + 1, hn⟩ (fun h => h0 ((hcond1_0 ⟨n + 1, hn⟩).mp h)) ((hcond1_1 ⟨n + 1, hn⟩).mpr h1) (outsAt1 c n (Nat.lt_of_succ_lt hn)).2)
      else
        (idleOut, soutB V c ⟨n + 1, hn⟩ (fun h => h0 ((hcond1_0 ⟨n + 1, hn⟩).mp h)) (fun h => h1 ((hcond1_1 ⟨n + 1, hn⟩).mp h)) (outsAt1 c n (Nat.lt_of_succ_lt hn)).2)

theorem outsAt1_A (c : Dev nD) (t : Fin cfg1.N) (h0 : t.val % 16 = 0) (h1 : ¬t.val % 16 = 15) :
    outsAt1 V c t.val t.isLt = (idleOut, soutA V c t ((hcond1_0 t).mpr h0) (fun h => h1 ((hcond1_1 t).mp h))) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (idleOut, soutB V c t (fun h => h0 ((hcond1_0 t).mp h)) (fun h => h1 ((hcond1_1 t).mp h)) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC V c t (fun h => h0 ((hcond1_0 t).mp h)) ((hcond1_1 t).mpr h1) (outsAt1 V c (t.val - 1) (Nat.lt_of_le_of_lt (Nat.sub_le _ _) t.isLt)).2,
      soutC V c t (fun h => h0 ((hcond1_0 t).mp h)) ((hcond1_1 t).mpr h1) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything);
    afterwards the same with the accumulator at what the point before left in it. -/
def PhiS (c : Dev nD) : (n : ℕ) → n ≤ cfg1.N → sProp 𝕄
  | 0, _ => Pipeline.ΦA spec1 c
  | n + 1, hn => iprop((anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((anyAt c cc0_stg0_0 ∗ anyAt c cc0_stg0_1 ∗ anyAt c cc0_stg1_0 ∗ anyAt c cc0_stg1_1 ∗ owns (c : Thread nD τ) scM1 fullShare ((outsAt1 V c n hn).2)) ∗ (∃ r, prngReg c r)) := rfl
theorem PhiS_pos (c : Dev nD) (n : ℕ) (h : n ≤ cfg1.N) (hz : n ≠ 0) :
    PhiS V c n h = iprop((anyAt c cc0_stg0_0 ∗ anyAt c cc0_stg0_1 ∗ anyAt c cc0_stg1_0 ∗ anyAt c cc0_stg1_1 ∗ owns (c : Thread nD τ) scM1 fullShare ((outsAt1 V c (n - 1) (by omega)).2)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Regions

end Cert.KernelIdeal.Fr

end
-- ==== Proof.KI.Pieces.lean ====
/-
  What the fused kernel's body leaves, as values. Read back from the stores each case's run found: at a point with column
  tile 0 the accumulator ends at `0-block + A_blk · hs_tile` (the zero block stored first, read back, added to); at every
  other point at `acc + A_blk · hs_tile` of what it held before; and at column tile 15 the output block is
  `d · acc' + (d · d) · h` of the finished accumulator `acc'`. Here `A_blk` is the point's block of the adjacency matrix,
  `hs_tile` the 1024 rows of the scaled features the column tile names, `d` and `h` the point's rows of the degree column
  and of the features. Stated at any float instance, over the payload terms.
-/
import proofs.«110735_j22325240004644_2_alg».proof.Proof.KI.Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section Regions
variable (V : (c : Dev nD) → (b : Ref sig .tc) → Buf (Elt F) ((c : Thread nD τ).loc b))

/-- The rows of the scaled features that the column tile of point `t` reads: 1024 rows from row `1024 · (t % 16)`. -/
def hsTile (c : Dev nD) (t : Fin cfg1.N) : Vec F S1024x256 .bf16 :=
  View.ld (iblk1 V c 1 t) (Rect.unit (s := S16384x256) (k1_off1 (grid1.coords t)) S1024x256.size (k1_off1_inb (grid1.coords t)))

theorem soutB_eq (c : Dev nD) (t : Fin cfg1.N) (h0 : ¬cond1_0 (grid1.coords t)) (h1 : ¬cond1_1 (grid1.coords t)) (xs : Vec F S2048x256 .f32) :
    soutB V c t h0 h1 xs = k1_pay2 (iblk1 V c 0 t) (hsTile V c t) xs := by
  unfold soutB
  rw [View.read_writes_eq_canon _ _ _ (scoverB V c t h0 h1 xs)]
  unfold runB kernelRun1_B
  dsimp only
  rw [View.canon_unit_zero hz2]
  simp only [View.readAt_eq_ld, (hs1_0 t).read_unread, (hs1_1 t).read_unread, (Memref.isWhole_whole cc1_scratch0).read_unread,
    View.ld_unit_zero (S := S2048x1024) hz2, View.ld_unit_zero (S := S2048x256) hz2]
  rfl

theorem soutC_eq (c : Dev nD) (t : Fin cfg1.N) (h0 : ¬cond1_0 (grid1.coords t)) (h1 : cond1_1 (grid1.coords t)) (xs : Vec F S2048x256 .f32) :
    soutC V c t h0 h1 xs = k1_pay2 (iblk1 V c 0 t) (hsTile V c t) xs := by
  unfold soutC
  rw [View.read_writes_eq_canon _ _ _ (scoverC V c t h0 h1 xs)]
  unfold runC kernelRun1_C
  dsimp only
  sl_unfold_words
  rw [View.canon_unit_zero hz2]
  simp only [View.readAt_eq_ld, (hs1_0 t).read_unread, (hs1_1 t).read_unread, (Memref.isWhole_whole cc1_scratch0).read_unread,
    View.ld_unit_zero (S := S2048x1024) hz2, View.ld_unit_zero (S := S2048x256) hz2]
  rfl

theorem soutA_eq (c : Dev nD) (t : Fin cfg1.N) (h0 : cond1_0 (grid1.coords t)) (h1 : ¬cond1_1 (grid1.coords t)) :
    soutA V c t h0 h1 = k1_pay2 (iblk1 V c 0 t) (hsTile V c t) k1_pay1 := by
  unfold soutA
  rw [View.read_writes_eq_canon _ _ _ (scoverA V c t h0 h1)]
  unfold runA kernelRun1_A
  dsimp only
  sl_unfold_words
  rw [View.canon_cons_unit_zero (S := S2048x256) hz2, View.readCov_unit_zero (S := S2048x256) _ hz2]
  simp only [View.readAt_eq_ld, (hs1_0 t).read_unread, (hs1_1 t).read_unread,
    View.ld_unit_zero (S := S2048x1024) hz2, View.ld_unit_zero (S := S2048x256) hz2]
  rfl

theorem outC_eq (c : Dev nD) (t : Fin cfg1.N) (h0 : ¬cond1_0 (grid1.coords t)) (h1 : cond1_1 (grid1.coords t)) (xs : Vec F S2048x256 .f32) :
    outC V c t h0 h1 xs = k1_pay3 (iblk1 V c 3 t) (k1_pay2 (iblk1 V c 0 t) (hsTile V c t) xs) (iblk1 V c 2 t) := by
  unfold outC
  rw [View.read_writes_eq_canon _ _ _ (coverC V c t h0 h1 xs)]
  unfold runC kernelRun1_C
  dsimp only
  sl_unfold_words
  rw [View.canon_unit_zero hz2, View.readCov_unit_zero (S := S2048x256) _ hz2]
  simp only [View.readAt_eq_ld, (hs1_0 t).read_unread, (hs1_1 t).read_unread, (hs1_2 t).read_unread, (hs1_3 t).read_unread,
    (Memref.isWhole_whole cc1_scratch0).read_unread,
    View.ld_unit_zero (S := S2048x1024) hz2, View.ld_unit_zero (S := S2048x256) hz2, View.ld_unit_zero (S := S2048x1) hz2]
  rfl

/-- The output block of the last case in terms of the accumulator the same case leaves. -/
theorem outC_eq' (c : Dev nD) (t : Fin cfg1.N) (h0 : ¬cond1_0 (grid1.coords t)) (h1 : cond1_1 (grid1.coords t)) (xs : Vec F S2048x256 .f32) :
    outC V c t h0 h1 xs = k1_pay3 (iblk1 V c 3 t) (soutC V c t h0 h1 xs) (iblk1 V c 2 t) := by
  rw [outC_eq, soutC_eq]

end Regions

end Cert.KernelIdeal.Fr

end
-- ==== Proof.KI.Blocks.lean ====
/-
  Where region 1's blocks sit in their arrays. On the 8 × 16 grid, point `t` is (row tile `t / 16`, column tile `t % 16`).
  Its adjacency block is rows `2048·(t/16) …`, columns `1024·(t%16) …`; the scaled features are staged whole and the
  body reads rows `1024·(t%16) …` of them; the feature rows, the degree column and the output block are rows
  `2048·(t/16) …`. Each block read is stated over coordinates given by equations, at any float instance.
-/
import proofs.«110735_j22325240004644_2_alg».proof.Proof.KI.Pieces
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr Idealize.ShloMosaic.ValueIdx

variable {F : FTy → Type} [FloatOps F]

local notation "𝕄" => MT nD τ sig Unit (Elt F) ℕ (UR sig nD τ) ℕ

/-- The printed index maps and the slice offset, decided once over the 128 points. -/
theorem idx1 : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0
    ∧ win1_4.index t (0 : Fin 2) = t.val / 16 ∧ win1_4.index t (1 : Fin 2) = 0
    ∧ k1_off1 (grid1.coords t) (0 : Fin 2) = 1024 * (t.val % 16) ∧ k1_off1 (grid1.coords t) (1 : Fin 2) = 0 :=
  (by decide +kernel : ∀ t : Fin grid1.N, _)

section Regions
variable (V : (c : Dev nD) → (b : Ref sig .tc) → Buf (Elt F) ((c : Thread nD τ).loc b))

theorem blk0_apply (c : Dev nD) (t : Fin cfg1.N) (r : Fin 2048) (jj : Fin 1024) (R J : Fin 16384)
    (hR : R.val = 2048 * (t.val / 16) + r.val) (hJ : J.val = 1024 * (t.val % 16) + jj.val) :
    iblk1 V c 0 t (ix2 r jj) = V c main_arg1 (ix2 R J) := by
  obtain ⟨e0, e1, -⟩ := idx1 t
  show V c main_arg1 (((cfg1.win 0).blk t).view.emb (ix2 r jj)) = _
  refine congrArg _ ?_
  funext a; apply Fin.ext
  match a with
  | ⟨0, _⟩ => show win1_0.index t (0 : Fin 2) * 2048 + 1 * r.val = R.val; omega
  | ⟨1, _⟩ => show win1_0.index t (1 : Fin 2) * 1024 + 1 * jj.val = J.val; omega

theorem blk2_apply (c : Dev nD) (t : Fin cfg1.N) (r : Fin 2048) (q : Fin 256) (R : Fin 16384)
    (hR : R.val = 2048 * (t.val / 16) + r.val) :
    iblk1 V c 2 t (ix2 r q) = V c main_v5 (ix2 R q) := by
  obtain ⟨-, -, -, -, e0, e1, -⟩ := idx1 t
  show V c main_v5 (((cfg1.win 2).blk t).view.emb (ix2 r q)) = _
  refine congrArg _ ?_
  funext a; apply Fin.ext
  match a with
  | ⟨0, _⟩ => show win1_2.index t (0 : Fin 2) * 2048 + 1 * r.val = R.val; omega
  | ⟨1, _⟩ => show win1_2.index t (1 : Fin 2) * 256 + 1 * q.val = q.val; omega

theorem blk3_apply (c : Dev nD) (t : Fin cfg1.N) (r : Fin 2048) (R : Fin 16384)
    (hR : R.val = 2048 * (t.val / 16) + r.val) :
    iblk1 V c 3 t (ix2 r (0 : Fin 1)) = V c main_v10 (ix2 R (0 : Fin 1)) := by
  obtain ⟨-, -, -, -, -, -, e0, e1, -⟩ := idx1 t
  show V c main_v10 (((cfg1.win 3).blk t).view.emb (ix2 r (0 : Fin 1))) = _
  refine congrArg _ ?_
  funext a; apply Fin.ext
  match a with
  | ⟨0, _⟩ => show win1_3.index t (0 : Fin 2) * 2048 + 1 * r.val = R.val; omega
  | ⟨1, _⟩ => show win1_3.index t (1 : Fin 2) * 1 + 1 * 0 = 0; omega

theorem hsTile_apply (c : Dev nD) (t : Fin cfg1.N) (jj : Fin 1024) (q : Fin 256) (J : Fin 16384)
    (hJ : J.val = 1024 * (t.val % 16) + jj.val) :
    hsTile V c t (ix2 jj q) = V c main_v9 (ix2 J q) := by
  obtain ⟨-, -, e0, e1, -, -, -, -, -, -, o0, o1⟩ := idx1 t
  show V c main_v9 (((cfg1.win 1).blk t).view.emb ((Rect.unit (s := S16384x256) (k1_off1 (grid1.coords t)) S1024x256.size (k1_off1_inb (grid1.coords t))).idx (ix2 jj q))) = _
  refine congrArg _ ?_
  funext a; apply Fin.ext
  match a with
  | ⟨0, _⟩ => show win1_1.index t (0 : Fin 2) * 16384 + 1 * (k1_off1 (grid1.coords t) (0 : Fin 2) + 1 * jj.val) = J.val; omega
  | ⟨1, _⟩ => show win1_1.index t (1 : Fin 2) * 256 + 1 * (k1_off1 (grid1.coords t) (1 : Fin 2) + 1 * q.val) = q.val; omega

end Regions

end Cert.KernelIdeal.Fr

end
-- ==== Proof.Spec.lean ====
/-
  The graph-convolution layer as one function of the four argument arrays, index by index, on the extended reals.

  With `h = x·Wᵀ + b` (a row of `x` against a row of `W`, plus the bias) and the degree scale
  `d i = rsqrt (∑ j, A i j + 1)` — the inverse square root of a row sum of `A + I` — the layer's output at `(i, c)` is
      d i · (∑ j, A i j · (d j · h j c)) + (d i · d i) · h i c,
  the self-loop's term `(d i)² · h i c` split off the neighbour sum. This is the arrangement the tiled kernel computes;
  the other arrangement, `∑ j, (((A + I) i j · d i) · d j) · h j c`, is equal to it where every `d i` is a real number.
-/
import Idealize.ShloMosaic.PureOps.Ideal
import Idealize.ShloMosaic.Lib.ValueIdx

noncomputable section

namespace Cert.Gcn

open Idealize.ShloMosaic Idealize.ShloMosaic.ValueIdx

/-- The shapes of the arguments and of the result. -/
abbrev SX : Shape := ⟨2, ![16384, 512]⟩
abbrev SA : Shape := ⟨2, ![16384, 16384]⟩
abbrev SW : Shape := ⟨2, ![256, 512]⟩
abbrev SB : Shape := ⟨1, ![256]⟩
abbrev SO : Shape := ⟨2, ![16384, 256]⟩

/-- The float word of `1.0`, the weight of a self-loop. -/
def one : EReal := Ideal.ofBits .f32 0x3F800000#32

/-- The linear layer `h = x·Wᵀ + b` at node `j`, output feature `c`. -/
def lin (x : SX.Idx → EReal) (W : SW.Idx → EReal) (b : SB.Idx → EReal) (j : Fin 16384) (c : Fin 256) : EReal :=
  (∑ k : Fin 512, x (ix2 j k) * W (ix2 c k)) + b (ix1 c)

/-- The degree scale of node `i`: the inverse square root of the `i`-th row sum of `A + I`. -/
def deg (A : SA.Idx → EReal) (i : Fin 16384) : EReal :=
  Ideal.rsqrt ((∑ j : Fin 16384, A (ix2 i j)) + one)

/-- The layer's output at node `i`, feature `c`, with the self-loop's term split off. -/
def outAt (x : SX.Idx → EReal) (A : SA.Idx → EReal) (W : SW.Idx → EReal) (b : SB.Idx → EReal) (i : Fin 16384) (c : Fin 256) : EReal :=
  deg A i * (∑ j : Fin 16384, A (ix2 i j) * (deg A j * lin x W b j c)) + (deg A i * deg A i) * lin x W b i c

/-- The layer's output array. -/
def out (x : SX.Idx → EReal) (A : SA.Idx → EReal) (W : SW.Idx → EReal) (b : SB.Idx → EReal) : SO.Idx → EReal :=
  fun o => outAt x A W b (o 0) (o 1)

theorem out_ix2 (x : SX.Idx → EReal) (A : SA.Idx → EReal) (W : SW.Idx → EReal) (b : SB.Idx → EReal) (i : Fin 16384) (c : Fin 256) :
    out x A W b (ix2 i c) = outAt x A W b i c := rfl

end Cert.Gcn

end
-- ==== Proof.KI.LibColBroadcast.lean ====
/-
  A column broadcast read at an index.

  A `[a, 1]` array — one value per row — broadcast to `[a, b]` repeats each row's value along the row: the result at
  `(p, c)` is the operand at `(p, 0)`, whatever the column `c`. (This is the keepdims form a row statistic takes
  before it scales its row.)
-/
import Idealize.ShloMosaic.Lib.ValueLayout

namespace Cert.Lib

open Idealize.ShloMosaic Idealize.ShloMosaic.ValueIdx

/-- An `[a, 1]` array broadcast to `[a, b]` reads, at `(p, c)`, the operand's one column at row `p`: on axis 0 the
    operand's coordinate is the result's (when `a = 1` both are `0`), and on the operand's unit axis 1 it is `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KI.Payloads.lean ====
/-
  The four stored values of the two kernels, read at an index, on the extended reals.

  The degree kernel stores, for a `256 × 16384` tile, the inverse square root of each row's sum plus one. The fused
  product kernel stores a tile of zeros (when it starts a row block), its accumulator plus the product of a
  `2048 × 1024` block with a `1024 × 256` block (at every step), and, from the finished accumulator `v21`, the column of
  scales `v19` and the features `v25`, the value `v19 · v21 + v19² · v25` row by row (at the last step). On the extended
  reals a format change and a cast to the same shape are the identity, a matrix product into a zero accumulator is the
  sum of the products over the contracted coordinate, and a sum along the lanes is the sum over the lane coordinate.
-/
import proofs.«110735_j22325240004644_2_alg».proof.Proof.Gen.KernelIdeal.Skeleton
import proofs.«110735_j22325240004644_2_alg».proof.Proof.Spec
import proofs.«110735_j22325240004644_2_alg».proof.Proof.KI.LibColBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The degree kernel's stored value -/

/-- An elementwise inverse square root at an index is the inverse square root of the element. -/
theorem rsqrt_apply {s : Shape} {φ : FTy} (a : FVec Ideal s φ) (i : s.Idx) : rsqrt a i = Ideal.rsqrt (a i) := rfl

/-- The sum along the lanes of a `256 × 16384` tile, read at row `r`: the sum over the lane coordinate `j` of the tile at
    `(r, j)`. The reduced index `r` with the lane coordinate `j` put back on axis 1 is `(r, j)`, coordinate by coordinate. -/
theorem laneSum_apply (src : FVec Ideal S256x16384 .f32) (hφ : FKind.Formats .f32)
    (hacc : (0x00000000#32 : BitVec 32) = 0x00000000#32) (r : Fin 256) :
    multiReduction .add [1] S256 src 0x00000000#32 reduces_S256x16384_S256 hφ hacc (ix1 r)
      = ∑ j : Fin 16384, src (ix2 r j) := by
  refine (Ideal.multiReduction_add_single src 0x00000000#32 reduces_S256x16384_S256 hφ hacc (ix1 r)).trans ?_
  show ∑ j : Fin 16384, src (reduces_S256x16384_S256.lift (ix1 r) j) = ∑ j : Fin 16384, src (ix2 r j)
  refine Finset.sum_congr rfl fun j _ => congrArg src ?_
  funext a
  match a with
  | ⟨0, _⟩ => rfl
  | ⟨1, _⟩ => rfl

/-- The degree kernel's stored value at row `r`: the inverse square root of the row's sum plus one (the float word of
    `1.0` read on the extended reals is the specification's `one`, by definition). -/
theorem pay0_apply (v0 : Vec Ideal S256x16384 .f32) (r : Fin 256) :
    k0_pay1 (F := Ideal) v0 (ix1 r) = Ideal.rsqrt ((∑ j : Fin 16384, v0 (ix2 r j)) + Cert.Gcn.one) := by
  unfold k0_pay1
  rw [rsqrt_apply, addf_apply, broadcast_apply]
  exact congrArg Ideal.rsqrt (congrArg₂ (· + ·) (laneSum_apply v0 _ _ r) rfl)

/-! ## The fused kernel's three stored values -/

/-- The tile of zeros at `(r, q)`: the float word `0` read on the extended reals is `0`. -/
theorem pay1_apply (r : Fin 2048) (q : Fin 256) : k1_pay1 (F := Ideal) (ix2 r q) = 0 := by
  unfold k1_pay1
  rw [shapeCast_self]
  exact Ideal.ofBits_zero_f32

/-- The dimension numbers of the kernel's one matrix product: `[2048, 1024] · [1024, 256]`, contracting the left
    operand's axis 1 with the right operand's axis 0. -/
abbrev mmDims : DotDims S2048x1024 S1024x256 S2048x256 := dot_S2048x1024_S1024x256_S2048x256_1_0_0_1_n_n

/-- The left operand's row coordinate at result index `i` is `i`'s row. -/
theorem mm_lhs_0 (i : S2048x256.Idx) (c : mmDims.contr.Idx) : (mmDims.lhsIdx i c 0).val = (i 0).val := by
  unfold DotDims.lhsIdx
  rw [dif_neg (show ¬(0 : Fin S2048x1024.rank) ∈ mmDims.lhsBatch by decide),
    dif_pos (show (0 : Fin S2048x1024.rank) ∈ mmDims.lhsNonContracting by decide)]
  rfl
/-- The left operand's column coordinate is the contracted coordinate. -/
theorem mm_lhs_1 (i : S2048x256.Idx) (c : mmDims.contr.Idx) : (mmDims.lhsIdx i c 1).val = (c ⟨0, by decide⟩).val :=
  mmDims.lhsIdx_val_of_single rfl i c
/-- The right operand's row coordinate is the contracted coordinate. -/
theorem mm_rhs_0 (i : S2048x256.Idx) (c : mmDims.contr.Idx) : (mmDims.rhsIdx i c 0).val = (c ⟨0, by decide⟩).val :=
  mmDims.rhsIdx_val_of_single rfl i c
/-- The right operand's column coordinate at result index `i` is `i`'s column. -/
theorem mm_rhs_1 (i : S2048x256.Idx) (c : mmDims.contr.Idx) : (mmDims.rhsIdx i c 1).val = (i 1).val := by
  unfold DotDims.rhsIdx
  rw [dif_neg (show ¬(1 : Fin S1024x256.rank) ∈ mmDims.rhsBatch by decide),
    dif_pos (show (1 : Fin S1024x256.rank) ∈ mmDims.rhsNonContracting by decide)]
  rfl

/-- The matrix product into a zero accumulator, read at `(r, q)`: the sum over the contracted coordinate `j` of the
    left operand at `(r, j)` times the right operand at `(j, q)`. The contraction index has one axis of extent 1024;
    the sum is re-indexed along its identification with `Fin 1024`. -/
theorem matmul_zero_apply (a : FVec Ideal S2048x1024 .bf16) (b : FVec Ideal S1024x256 .bf16) (r : Fin 2048) (q : Fin 256) :
    FloatOps.matmul mmDims none a b (constant (F := Ideal) S2048x256 .f32 0x00000000#32) (ix2 r q)
      = ∑ j : Fin 1024, a (ix2 r j) * b (ix2 j q) := by
  rw [Ideal.matmul_constant_zero_apply, ← Equiv.sum_comp (contrEquiv1 mmDims 1024 rfl rfl).symm]
  refine Finset.sum_congr rfl fun k _ => ?_
  have hk := contrEquiv1_symm_val mmDims 1024 rfl rfl k
  have el : mmDims.lhsIdx (ix2 r q) ((contrEquiv1 mmDims 1024 rfl rfl).symm k) = ix2 r k := funext fun c => Fin.ext (by
    match c with
    | ⟨0, _⟩ => exact mm_lhs_0 _ _
    | ⟨1, _⟩ => exact (mm_lhs_1 _ _).trans hk)
  have er : mmDims.rhsIdx (ix2 r q) ((contrEquiv1 mmDims 1024 rfl rfl).symm k) = ix2 k q := funext fun c => Fin.ext (by
    match c with
    | ⟨0, _⟩ => exact (mm_rhs_0 _ _).trans hk
    | ⟨1, _⟩ => exact mm_rhs_1 _ _)
  rw [el, er]

/-- The accumulator step at `(r, q)`: the accumulator plus the block product's entry. -/
theorem pay2_apply (v3 : Vec Ideal S2048x1024 .f32) (v8 : Vec Ideal S1024x256 .bf16) (v10 : Vec Ideal S2048x256 .f32)
    (r : Fin 2048) (q : Fin 256) :
    k1_pay2 (F := Ideal) v3 v8 v10 (ix2 r q) = v10 (ix2 r q) + ∑ j : Fin 1024, v3 (ix2 r j) * v8 (ix2 j q) := by
  unfold k1_pay2
  rw [shapeCast_self, shapeCast_self, addf_apply]
  refine congrArg₂ (· + ·) rfl ?_
  exact matmul_zero_apply (truncf .bf16 v3 bitsLt_bf16_f32) v8 r q

/-- The last step's value at `(r, q)`: the row's scale times the accumulator, plus the scale's square times the
    features. The column of scales (and of their squares) broadcast along the row reads the column's entry at row `r`. -/
theorem pay3_apply (v19 : Vec Ideal S2048x1 .f32) (v21 v25 : Vec Ideal S2048x256 .f32) (r : Fin 2048) (q : Fin 256) :
    k1_pay3 (F := Ideal) v19 v21 v25 (ix2 r q)
      = v19 (ix2 r 0) * v21 (ix2 r q) + (v19 (ix2 r 0) * v19 (ix2 r 0)) * v25 (ix2 r q) := by
  unfold k1_pay3
  rw [shapeCast_self, shapeCast_self, addf_apply, mulf_apply, mulf_apply,
    Cert.Lib.broadcastTo_a1_ab_apply, Cert.Lib.broadcastTo_a1_ab_apply, mulf_apply]

end Cert.KernelIdeal.Pay

end
-- ==== Proof.KI.Acc.lean ====
/-
  The accumulator along a row tile is a running sum. After the point at (row tile `i`, column tile `k`) it holds, at
  `(r, q)`, the sum over column tiles `s ≤ k` of the block products `∑ jj < 1024, A_blk(i, s) (r, jj) · hs_tile(s) (jj, q)`:
  at `k = 0` it is reset to the first product (the zero block plus the product) and each later point adds its own. By
  induction on the column tile, on the extended reals. Grid points are kept opaque throughout (a point is named by an
  irreducible constructor and known only through its number), so that no step evaluates the grid's coordinate arithmetic.
-/
import proofs.«110735_j22325240004644_2_alg».proof.Proof.KI.Blocks
import proofs.«110735_j22325240004644_2_alg».proof.Proof.KI.Payloads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr Idealize.ShloMosaic.ValueIdx

variable {F : FTy → Type} [FloatOps F]

local notation "𝕄" => MT nD τ sig Unit (Elt F) ℕ (UR sig nD τ) ℕ

/-- The grid point with number `16 · i + s`: row tile `i`, column tile `s`. -/
@[irreducible] def ptOf (i s : ℕ) (h : 16 * i + s < cfg1.N) : Fin cfg1.N := ⟨16 * i + s, h⟩
theorem ptOf_val (i s : ℕ) (h : 16 * i + s < cfg1.N) : (ptOf i s h).val = 16 * i + s := by
  unfold ptOf; rfl
theorem ptOf_eq (i s : ℕ) (h : 16 * i + s < cfg1.N) (t : Fin cfg1.N) (ht : t.val = 16 * i + s) : ptOf i s h = t :=
  Fin.ext ((ptOf_val i s h).trans ht.symm)

section Ideal
variable (V : (c : Dev nD) → (b : Ref sig .tc) → Buf (Elt Ideal) ((c : Thread nD τ).loc b))

/-- Point `t`'s adjacency block and its tile of the scaled features, as arrays of extended reals. -/
def blkA (c : Dev nD) (t : Fin cfg1.N) : S2048x1024.Idx → EReal := iblk1 V c 0 t
def tileHs (c : Dev nD) (t : Fin cfg1.N) : S1024x256.Idx → EReal := hsTile V c t

/-- Point `t`'s addend at `(r, q)`: the block product. -/
def addendAt (c : Dev nD) (t : Fin cfg1.N) (idx : S2048x256.Idx) : EReal :=
  ∑ jj : Fin 1024, blkA V c t (ix2 (idx 0) jj) * tileHs V c t (ix2 jj (idx 1))

/-- The addend of the point numbered `16 · i + s` (zero past the grid). -/
def addend (c : Dev nD) (i s : ℕ) (idx : S2048x256.Idx) : EReal :=
  if h : 16 * i + s < cfg1.N then addendAt V c (ptOf i s h) idx else 0

theorem step_apply (c : Dev nD) (t : Fin cfg1.N) (acc : Vec Ideal S2048x256 .f32) (idx : S2048x256.Idx) :
    k1_pay2 (F := Ideal) (iblk1 V c 0 t) (hsTile V c t) acc idx = acc idx + addendAt V c t idx := by
  obtain ⟨r, q, rfl⟩ : ∃ (r : Fin 2048) (q : Fin 256), idx = ix2 r q := ⟨idx 0, idx 1, eq_ix2 idx⟩
  exact Cert.KernelIdeal.Pay.pay2_apply (iblk1 V c 0 t) (hsTile V c t) acc r q

theorem zero_apply (idx : S2048x256.Idx) : k1_pay1 (F := Ideal) idx = 0 := by
  obtain ⟨r, q, rfl⟩ : ∃ (r : Fin 2048) (q : Fin 256), idx = ix2 r q := ⟨idx 0, idx 1, eq_ix2 idx⟩
  exact Cert.KernelIdeal.Pay.pay1_apply r q

/-- The accumulator does not depend on how a point's number is spelt. -/
theorem scratch_congr (c : Dev nD) (u u' : ℕ) (hu : u < cfg1.N) (hu' : u' < cfg1.N) (e : u = u') :
    (outsAt1 V c u hu).2 = (outsAt1 V c u' hu').2 := by subst e; rfl

/-- At a row tile's first point the accumulator is the zero block plus the point's addend. -/
theorem scratch_first (c : Dev nD) (t : Fin cfg1.N) (h0 : t.val % 16 = 0) (idx : S2048x256.Idx) :
    (outsAt1 V c t.val t.isLt).2 idx = 0 + addendAt V c t idx := by
  have h1 : ¬t.val % 16 = 15 := by omega
  have e : (outsAt1 V c t.val t.isLt).2 = soutA V c t ((hcond1_0 t).mpr h0) (fun h => h1 ((hcond1_1 t).mp h)) := by
    rw [outsAt1_A V c t h0 h1]
  rw [e, soutA_eq, step_apply, zero_apply]

/-- At every other point it is what the point before left plus the point's addend. -/
theorem scratch_next (c : Dev nD) (t : Fin cfg1.N) (h0 : ¬t.val % 16 = 0) (idx : S2048x256.Idx) :
    (outsAt1 V c t.val t.isLt).2 idx
      = (outsAt1 V c (t.val - 1) (Nat.lt_of_le_of_lt (Nat.sub_le _ _) t.isLt)).2 idx + addendAt V c t idx := by
  by_cases h1 : t.val % 16 = 15
  · have e : (outsAt1 V c t.val t.isLt).2 = soutC V c t (fun h => h0 ((hcond1_0 t).mp h)) ((hcond1_1 t).mpr h1)
        (outsAt1 V c (t.val - 1) (Nat.lt_of_le_of_lt (Nat.sub_le _ _) t.isLt)).2 := by
      rw [outsAt1_C V c t h0 h1]
    rw [e, soutC_eq, step_apply]
  · have e : (outsAt1 V c t.val t.isLt).2 = soutB V c t (fun h => h0 ((hcond1_0 t).mp h)) (fun h => h1 ((hcond1_1 t).mp h))
        (outsAt1 V c (t.val - 1) (Nat.lt_of_le_of_lt (Nat.sub_le _ _) t.isLt)).2 := by
      rw [outsAt1_B V c t h0 h1]
    rw [e, soutB_eq, step_apply]

/-- The accumulator after the point at (row tile `i`, column tile `k`) is the sum of the addends of column tiles `0 … k`. -/
theorem scratch_sum (c : Dev nD) (i : ℕ) (k : ℕ) (hk : k < 16) : ∀ (t : Fin cfg1.N), t.val = 16 * i + k → ∀ idx : S2048x256.Idx,
    (outsAt1 V c t.val t.isLt).2 idx = 0 + ∑ s ∈ Finset.range (k + 1), addend V c i s idx := by
  induction k with
  | zero =>
    intro t ht idx
    have hlt : 16 * i + 0 < cfg1.N := by have := t.isLt; omega
    rw [scratch_first V c t (by omega) idx, Finset.sum_range_one]
    unfold addend
    rw [dif_pos hlt, ptOf_eq i 0 hlt t ht]
  | succ k ih =>
    intro t ht idx
    have hprev : t.val - 1 < cfg1.N := Nat.lt_of_le_of_lt (Nat.sub_le _ _) t.isLt
    obtain ⟨t', ht'⟩ : ∃ t' : Fin cfg1.N, t'.val = t.val - 1 := ⟨⟨t.val - 1, hprev⟩, rfl⟩
    have hlt : 16 * i + (k + 1) < cfg1.N := by have := t.isLt; omega
    rw [scratch_next V c t (by omega) idx, scratch_congr V c (t.val - 1) t'.val hprev t'.isLt ht'.symm,
      ih (by omega) t' (by omega) idx, Finset.sum_range_succ _ (k + 1), add_assoc]
    congr 2
    unfold addend
    rw [dif_pos hlt, ptOf_eq i (k + 1) hlt t ht]

end Ideal

end Cert.KernelIdeal.Fr

end
-- ==== Proof.KI.Body1.lean ====
/-
  The fused kernel's body obligation at every grid point. The inputs' staging buffers hold their blocks; the column tile
  `t % 16` says which of the three cases the point is in; the invariant hands the body the accumulator — at anything at
  the very first point, at what the point before left otherwise — and takes it back at this point's contents; where the
  second branch is not taken the output window is idle and its buffer is handed back untouched. Also: the invariant
  before the first point is the class's, and after any later point it gives the class's back (the accumulator's named
  contents forgotten).
-/
import proofs.«110735_j22325240004644_2_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold soutA; (try dsimp only)
    by_cases hz : t.val = 0
    · rw [PhiS_castSucc V c t, PhiS_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverA V c t _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runA V c t ((hcond1_0 t).mpr h0) (fun h => h1 ((hcond1_1 t).mp h))).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverA V c t _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold outC soutC; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runC V c t (fun h => h0 ((hcond1_0 t).mp h)) ((hcond1_1 t).mpr h1) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverC V c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC V c t _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold soutB; (try dsimp only)
      rw [PhiS_castSucc V c t, PhiS_pos V c _ _ hz]
      iintro ⟨⟨⟨Ha, Hb, Hc, Hd, HS0⟩, Hg⟩, Ho, ⟨%d0, H0⟩, ⟨%d1, H1⟩, ⟨%d2, H2⟩, ⟨%d3, H3⟩, ⟨%d4, H4⟩⟩
      iapply ((runB V c t (fun h => h0 ((hcond1_0 t).mp h)) (fun h => h1 ((hcond1_1 t).mp h)) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha Hb Hc Hd HS0 Hg]
      · isplitr [Hg]
        · isplitl [Ha]; · iexact Ha
          isplitl [Hb]; · iexact Hb
          isplitl [Hc]; · iexact Hc
          isplitl [Hd]; · iexact Hd
          unfold owns; iexists _; isplitr
          swap; · iexact HS0
          ipureintro; exact View.read_writes_of_cover _ _ _ _ _ (scoverB V c t _ _ _)
        iexact Hg
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi_in1 (c : Dev nD) : (dat1 V c).Φ 0 = Pipeline.ΦA spec1 c := rfl

/-- After any point but the first the invariant gives the class's back. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS0⟩, Hg⟩
  isplitr [Hg]
  · isplitl [Ha]; · iexact Ha
    isplitl [Hb]; · iexact Hb
    isplitl [Hc]; · iexact Hc
    isplitl [Hd]; · iexact Hd
    iexists _; iexact HS0
  iexact Hg

theorem Phi_last1 (c : Dev nD) : (dat1 V c).Φ (Fin.last cfg1.N) ⊢ Pipeline.ΦA spec1 c :=
  Phi_out1 V c _ (by rw [Fin.val_last]; have : cfg1.N = 128 := N_1; omega)

end Regions

end Cert.KernelIdeal.Fr

end
-- ==== Proof.KI.Main.lean ====
/-
  The run of the whole program. Its three items in order: region 0 (the degree kernel), ten host operations (the linear
  layer `x·Wᵀ + b`, the features scaled by the degree column and cast, the degree column itself), region 1 (the fused
  product). The buffer contents at each boundary are a fold from the launch memory: region 0 changes only its result
  array (to what its write-backs leave), the host stretch only its own results, region 1 only its result array. Every
  weakly fair execution terminates without a fault, and at the end every unscoped buffer holds the last boundary's
  contents: the four arguments what they were launched with, the result what region 1's write-backs leave.
-/
import proofs.«110735_j22325240004644_2_alg».proof.Proof.KI.Body1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its arrays at what the pipeline leaves, every other buffer as entered. -/
def W2 (c : Dev nD) : Valuation τ sig (Elt F) :=
  Pipeline.withArrays spec0 c (W0 m ρ c) fun w => (dat0 (V0 m ρ) c).arrAt w cfg0.N
theorem W2_arr (c : Dev nD) (w : Fin cfg0.W) :
    W2 m ρ c (Proc.devRef .tc (Pipeline.arrRef spec0 w)) = (dat0 (V0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V0 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V0 m ρ c b :=
  fun b hb => W2_of_ne m ρ c b fun w e => hb (Finset.mem_image.mpr ⟨w, Finset.mem_univ _, e⟩)

/-- After the ten host operations: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W2_of_ne m ρ c main_arg0 (by decide)
    _ = m ((c : Thread nD τ).loc main_arg0) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W2_of_ne m ρ c main_arg2 (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W2_of_ne m ρ c main_arg3 (by decide)
    _ = m ((c : Thread nD τ).loc main_arg3) := rfl

/-- The adjacency matrix is an input window's array of both regions: neither writes it back. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl

/-- The result array ends at what region 1's write-backs leave. -/
theorem W4_main_v11 (c : Dev nD) : W4 m ρ c (Proc.devRef .tc main_v11) = (dat1 (V3 m ρ) c).arrAt 4 cfg1.N :=
  W4_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine ((show (pdats m ρ 0 c).Φ (Fin.last _) ⊢ Pipeline.ΦA spec0 c from .rfl)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine ((show (pdats m ρ 1 c).Φ (Fin.last _) ⊢ Pipeline.ΦA spec1 c from Phi_last1 (V3 m ρ) c)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution terminates, nothing faulting, and every unscoped buffer ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- THE RESULT: the result array ends at what region 1's write-backs leave, beside the frame. -/
theorem run_result : θ_run defs (onTc (τ := τ) (main (F := F))) ⟨m, fun _ => 0, ρ⟩ (fun r => ∀ c : Dev nD,
      r.2.mem ((c.tc : Thread nD τ).loc main_v11) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v11 (by decide))).trans (W4_main_v11 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Fr

end
-- ==== Proof.KI.Deg.lean ====
/-
  The degree kernel's result array is the degree vector.

  The degree kernel runs on 64 row tiles. At tile `t` it reads rows `256·t … 256·t + 255` of the adjacency matrix `A`,
  whole rows, and writes back the 256 values `rsqrt (∑ j, A (i, j) + 1)` of those rows to entries `256·t … 256·t + 255`
  of its result. So every tile writes its block of ONE function of the row index, `i ↦ deg A i`, and the 64 blocks
  cover the 16384 entries (entry `i` lies in the block of tile `i / 256`): after the region the result array is the
  degree vector.
-/
import proofs.«110735_j22325240004644_2_alg».proof.Proof.KI.Main
import proofs.«110735_j22325240004644_2_alg».proof.Proof.KI.Payloads

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

/-! ## The block indices over the 64 tiles -/

theorem deg_off1 : (![0] : Fin 1 → Nat) = fun _ => 0 := funext fun a => by fin_cases a <;> rfl
theorem deg_off2 : (![0, 0] : Fin 2 → Nat) = fun _ => 0 := funext fun a => by fin_cases a <;> rfl

/-- At every tile the adjacency window's row-block index is the result window's block index, its column-block index
    is 0 (whole rows), and the result's block index is at most 63. -/
theorem deg_index : ∀ t : Fin cfg0.N, win0_0.index t (0 : Fin 2) = win0_1.index t (0 : Fin 1)
    ∧ win0_0.index t (1 : Fin 2) = 0
    ∧ win0_1.index t (0 : Fin 1) ≤ 63 :=
  (by decide +kernel : ∀ t : Fin grid0.N, _)

/-- Every one of the 64 blocks of the result is some tile's. -/
theorem deg_onto : ∀ q : Fin 64, ∃ t : Fin cfg0.N, win0_1.index t = ![q.val] :=
  (by decide +kernel : ∀ q : Fin 64, ∃ t : Fin grid0.N, win0_1.index t = ![q.val])

/-! ## What a tile writes back -/

section Region
variable (V : (c : Dev nD) → (b : Ref sig .tc) → Buf (Elt Ideal) ((c : Thread nD τ).loc b))

/-- Row `r` of tile `t`'s stored value is the degree scale of row `256·t + r` of the adjacency matrix: the tile's
    row `r` is that row of the matrix, entry by entry. -/
theorem deg_row (c : Dev nD) (t : Fin cfg0.N) (r : Fin 256) (hlt : win0_1.index t (0 : Fin 1) * 256 + 1 * r.val < 16384) :
    k0_pay1 (F := Ideal) (iblk0 V c 0 t) (ix1 r)
      = Cert.Gcn.deg (V c main_arg1) ⟨win0_1.index t (0 : Fin 1) * 256 + 1 * r.val, hlt⟩ := by
  obtain ⟨e0, e1, e2⟩ := deg_index t
  rw [Pay.pay0_apply]
  unfold Cert.Gcn.deg
  refine congrArg (fun s => Ideal.rsqrt (s + Cert.Gcn.one)) (Finset.sum_congr rfl fun j _ => ?_)
  show V c main_arg1 (((cfg0.win 0).blk t).view.emb (ix2 r j)) = V c main_arg1 (ix2 ⟨win0_1.index t (0 : Fin 1) * 256 + 1 * r.val, hlt⟩ j)
  refine congrArg (V c main_arg1) (funext fun a => Fin.ext ?_)
  match a with
  | ⟨0, _⟩ => show win0_0.index t (0 : Fin 2) * 256 + 1 * r.val = win0_1.index t (0 : Fin 1) * 256 + 1 * r.val; omega
  | ⟨1, _⟩ => show win0_0.index t (1 : Fin 2) * 16384 + 1 * j.val = j.val; omega

/-- What tile `t` writes back is its block of any function `G` of the result's index that its stored value agrees
    with, entry by entry. -/
theorem deg_flushed_of (c : Dev nD) (t : Fin cfg0.N) (G : S16384.Idx → EReal)
    (hG : ∀ y : S256.Idx, k0_pay1 (F := Ideal) (iblk0 V c 0 t) y = G (((cfg0.win 1).blk t).view.emb y)) :
    (dat0 V c).flushed 1 t = ((cfg0.win 1).blk t).view.read (Elt Ideal) G := by
  show (cfg0.win 1).cut (grid0.coords t) ((dat0 V c).after 1 t) = _
  rw [after0_1]
  unfold out0_1
  rw [View.canon_unit_zero deg_off1]
  simp only [View.ld_unit_zero (S := S256x16384) deg_off2]
  funext y
  exact hG y

/-- What tile `t` writes back is block `t` of the degree vector of the adjacency matrix as the region finds it. -/
theorem deg_flushed (c : Dev nD) (t : Fin cfg0.N) :
    (dat0 V c).flushed 1 t = ((cfg0.win 1).blk t).view.read (Elt Ideal) (fun i : S16384.Idx => Cert.Gcn.deg (V c main_arg1) (i 0)) := by
  refine deg_flushed_of V c t _ fun y => ?_
  obtain ⟨r, rfl⟩ : ∃ r : Fin 256, y = ix1 r := ⟨y 0, eq_ix1 y⟩
  obtain ⟨e0, e1, e2⟩ := deg_index t
  have hlt : win0_1.index t (0 : Fin 1) * 256 + 1 * r.val < 16384 := by have := r.isLt; omega
  refine (deg_row V c t r hlt).trans (congrArg (Cert.Gcn.deg (V c main_arg1)) (Fin.ext ?_))
  rfl

end Region

/-! ## The blocks cover the result -/

/-- An entry of the result is in tile `t`'s block iff it is in the block's range of 256. -/
theorem deg_mem_blk (t : Fin cfg0.N) (i : S16384.Idx) :
    i ∈ ((cfg0.win 1).blk t).view.set ↔ ∀ a : Fin 1, win0_1.index t a * S256.size a ≤ (i a).val ∧ (i a).val < win0_1.index t a * S256.size a + S256.size a := by
  show i ∈ ((View.whole main_v0).slice (win0_1.rect t)).set ↔ _
  rw [View.set_slice_whole, Rect.mem_set_unit]
  exact Iff.rfl

/-- Entry `i` is in the block of tile `i / 256`. -/
theorem deg_cover (i : S16384.Idx) : ∃ t : Fin cfg0.N, (cfg0.win 1).flush t = true ∧ i ∈ ((cfg0.win 1).blk t).view.set := by
  have hi : (i 0).val < 16384 := (i 0).isLt
  obtain ⟨t, ht⟩ := deg_onto ⟨(i 0).val / 256, by omega⟩
  have q0 : win0_1.index t (0 : Fin 1) = (i 0).val / 256 := congrFun ht 0
  refine ⟨t, flush0_1 t, ?_⟩
  rw [deg_mem_blk]
  intro a
  match a with
  | ⟨0, _⟩ => show win0_1.index t (0 : Fin 1) * 256 ≤ (i 0).val ∧ (i 0).val < win0_1.index t (0 : Fin 1) * 256 + 256; omega

/-! ## The result array after the region -/

section Run
variable (m : (ℓ : Loc nD τ sig) → Buf (Elt Ideal) ℓ) (ρ : Dev nD → PrngReg) (c : Dev nD)

/-- The degree kernel leaves the degree vector of the launched adjacency matrix in its result array. -/
theorem final0 : (dat0 (V0 m ρ) c).arrAt 1 cfg0.N = fun i => Cert.Gcn.deg (m ((c : Thread nD τ).loc main_arg1)) (i 0) :=
  (dat0 (V0 m ρ) c).arrAt_eq_of_cover 1 (fun i : S16384.Idx => Cert.Gcn.deg (m ((c : Thread nD τ).loc main_arg1)) (i 0))
    (fun t _ => deg_flushed (V0 m ρ) c t) deg_cover

end Run

end Cert.KernelIdeal.Fr

end
-- ==== Proof.LibERealSum.lean ====
/-
  The coercion of the reals into the extended reals commutes with finite sums.
-/
import Mathlib.Data.EReal.Operations
import Mathlib.Algebra.BigOperators.Group.Finset.Basic

open scoped BigOperators

namespace Cert.Lib

/-- The coercion `ℝ → EReal` of a finite sum of reals is the sum of the coercions: the coercion is additive
    (`EReal.coe_add`) and sends `0` to `0`, so the statement follows by induction on the index set. -/
theorem EReal_coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Lib
-- ==== Proof.SelfLoopLaw.lean ====
/-
  The two arrangements of the graph-convolution layer agree on real data.

  With `Â = A + I` (a self-loop of weight one at every node), degree scales `d` and features `h`, the normalised
  layer is `∑ k, ((Â i k · d i) · d k) · h k`. Splitting `Â` into `A` and the identity, the identity's part of the sum
  has the single term `k = i`, which is `(d i · d i) · h i`, and `d i` factors out of the rest:
      ∑ k, (((a k + δ i k) · d i) · d k) · h k = d i · (∑ j, a j · (d j · h j)) + (d i · d i) · h i.
  First over the reals (a commutative ring), then over the extended reals for data that are coercions of reals, where
  the coercion commutes with sums and products. (On arbitrary extended reals the identity fails: multiplication does not
  distribute over addition there.)
-/
import proofs.«110735_j22325240004644_2_alg».proof.Proof.LibERealSum
import Mathlib.Algebra.BigOperators.Ring.Finset
import Mathlib.Algebra.BigOperators.Group.Finset.Piecewise
import Mathlib.Tactic.Ring

open scoped BigOperators

namespace Cert.Gcn

variable {ι : Type*} [Fintype ι] [DecidableEq ι]

/-- The self-loop split over the reals, the loop's weight `e` kept general. -/
theorem selfLoop_real (i : ι) (a d h : ι → ℝ) (e : ℝ) :
    ∑ k, (((a k + if i = k then e else 0) * d i) * d k) * h k
      = d i * (∑ j, a j * (d j * h j)) + e * ((d i * d i) * h i) := by
  have hk : ∀ k, (((a k + if i = k then e else 0) * d i) * d k) * h k
      = d i * (a k * (d k * h k)) + (if i = k then e * ((d i * d k) * h k) else 0) := by
    intro k; split_ifs <;> ring
  simp only [hk, Finset.sum_add_distrib, Finset.sum_ite_eq, Finset.mem_univ, if_true, ← Finset.mul_sum]

/-- The self-loop split over the extended reals, for real data and a loop of weight one. -/
theorem selfLoop_ereal (i : ι) (a d h : ι → ℝ) :
    ∑ k, ((((a k : EReal) + if i = k then ((1 : ℝ) : EReal) else 0) * (d i : EReal)) * (d k : EReal)) * (h k : EReal)
      = (d i : EReal) * (∑ j, (a j : EReal) * ((d j : EReal) * (h j : EReal)))
        + ((d i : EReal) * (d i : EReal)) * (h i : EReal) := by
  have hite : ∀ k, (if i = k then ((1 : ℝ) : EReal) else 0) = (((if i = k then (1 : ℝ) else 0) : ℝ) : EReal) := by
    intro k; split_ifs <;> simp
  calc ∑ k, ((((a k : EReal) + if i = k then ((1 : ℝ) : EReal) else 0) * (d i : EReal)) * (d k : EReal)) * (h k : EReal)
      = ((∑ k, (((a k + if i = k then (1 : ℝ) else 0) * d i) * d k) * h k : ℝ) : EReal) := by
        rw [Cert.Lib.EReal_coe_finset_sum]
        refine Finset.sum_congr rfl fun k _ => ?_
        rw [hite k, EReal.coe_mul, EReal.coe_mul, EReal.coe_mul, EReal.coe_add]
    _ = ((d i * (∑ j, a j * (d j * h j)) + 1 * ((d i * d i) * h i) : ℝ) : EReal) := by
        rw [selfLoop_real i a d h 1]
    _ = (d i : EReal) * (∑ j, (a j : EReal) * ((d j : EReal) * (h j : EReal)))
        + ((d i : EReal) * (d i : EReal)) * (h i : EReal) := by
        rw [one_mul, EReal.coe_add, EReal.coe_mul, EReal.coe_mul, EReal.coe_mul, Cert.Lib.EReal_coe_finset_sum]
        simp only [EReal.coe_mul]

end Cert.Gcn
-- ==== Proof.AdjSelfLoop.lean ====
/-
  The reference's adjacency with self-loops, read at an index.

  The reference adds `1.0` on the diagonal of `A` by a scatter-add: update `r` (there are 16384 of them, each the constant
  `1.0`) carries the index vector `(r, r)` — the two columns of the index array are both `iota`, the `select` that wraps a
  negative index never firing since every index is non-negative — so it lands exactly at `(r, r)`. Hence at `(i, k)` the
  scattered array is `A (i, k)` plus the sum of the updates landing there: the one update `i` when `i = k`, none otherwise.
-/
import proofs.«110735_j22325240004644_2_alg».proof.Proof.Gen.ReferenceIdeal.Read
import proofs.«110735_j22325240004644_2_alg».proof.Proof.Spec

noncomputable section

namespace Cert.Gcn

open Idealize.ShloMosaic Idealize.ShloMosaic.ValueIdx Cert.ReferenceIdeal Cert.ReferenceIdeal.Gen Cert.ReferenceIdeal.Read

/-- The scatter's dimension numbers: both operand axes inserted and scattered, the index vector on axis 1. -/
abbrev scat : ScatterDims S16384x16384 S16384x2 S16384 := scatter_S16384x16384_S16384x2_S16384_n_01_01_1

/-! ## The index words -/

/-- A node number read back as a signed 32-bit word is itself. -/
theorem word_toInt (r : Fin 16384) : (BitVec.ofNat 32 r.val).toInt = (r.val : Int) := by
  have h := r.isLt
  rw [BitVec.toInt_eq_toNat_of_lt (by rw [BitVec.toNat_ofNat]; omega), BitVec.toNat_ofNat]
  omega

/-- A node number is not negative as a signed word, so the wrap-around `select` keeps it. -/
theorem wrap_keeps (r : Fin 16384) (X : BitVec 32) :
    Scalar.select (IntOp.cmpi .slt (BitVec.ofNat 32 r.val) 0#32) X (BitVec.ofNat 32 r.val) = BitVec.ofNat 32 r.val := by
  unfold Scalar.select
  rw [if_neg]
  intro h
  have h' := IntOp.cmpi_slt.1 h
  rw [word_toInt] at h'
  simp at h'
  omega

/-- Both columns of the index array hold the row's number. -/
theorem idx_word (r : Fin 16384) (c : Fin 2) :
    val_main_v14 (F := Ideal) (ix2 r c) = BitVec.ofNat 32 r.val := by
  unfold val_main_v14
  match c with
  | ⟨0, _⟩ =>
    refine (concatenate_pair_apply_left (t := S16384x2) (s₁ := S16384x1) (s₂ := S16384x1) _ _ _ _ _ rfl (ix2 r (0 : Fin 1)) ?_).trans ?_
    · intro b; match b with | ⟨0, _⟩ => rfl | ⟨1, _⟩ => rfl
    · rw [val_main_v12_apply, val_main_v6_apply, val_main_v3_apply, val_main_v0_apply, val_main_v2_apply, val_main_c_apply]
      exact wrap_keeps r _
  | ⟨1, _⟩ =>
    refine (concatenate_pair_apply_right (t := S16384x2) (s₁ := S16384x1) (s₂ := S16384x1) _ _ _ _ _ rfl rfl (ix2 r (0 : Fin 1)) ?_ ?_).trans ?_
    · intro b hb; match b with | ⟨0, _⟩ => rfl | ⟨1, _⟩ => exact absurd rfl hb
    · rfl
    · rw [val_main_v13_apply, val_main_v11_apply, val_main_v8_apply, val_main_v1_apply, val_main_v7_apply, val_main_c_1_apply]
      exact wrap_keeps r _

/-! ## Where an update lands -/

/-- Update `r` reads component `c` of its index vector at `(r, c)` of the index array. -/
theorem siIdx_eq (r : Fin 16384) (c : Fin scat.scatterDimsToOperandDims.length) :
    scat.siIdx (ix1 r) c = ix2 r (⟨c.val, c.isLt⟩ : Fin 2) := by
  funext b; match b with | ⟨0, _⟩ => rfl | ⟨1, _⟩ => rfl

section Land

variable (idx : IVec S16384x2 32) (hidx : ∀ (r : Fin 16384) (c : Fin 2), idx (ix2 r c) = BitVec.ofNat 32 r.val)
include hidx

/-- On both operand axes the window of update `r` starts at `r`. -/
theorem start_eq (r : Fin 16384) (a : Fin S16384x16384.rank) : scat.start (ix1 r) idx a = (r.val : Int) := by
  unfold ScatterDims.start
  have ha : a ∈ scat.scatterDimsToOperandDims := by
    show a ∈ ([0, 1] : List (Fin 2))
    match a with | ⟨0, _⟩ => simp | ⟨1, _⟩ => simp
  rw [dif_pos ha, siIdx_eq, hidx, word_toInt]

omit hidx in
/-- Both operand axes are inserted: an update has no window coordinate. -/
theorem window_eq (r : Fin 16384) (a : Fin S16384x16384.rank) : scat.window (ix1 r) a = 0 := by
  unfold ScatterDims.window
  have ha : a ∉ scat.sKept := by
    show a ∉ S16384x16384.kept [0, 1]
    revert a; decide
  rw [dif_neg ha]

/-- Update `r` lands at `(r, r)`. -/
theorem resultIdx_diag (r : Fin 16384) : scat.resultIdx? (ix1 r) idx = some (ix2 r r) := by
  have hs := start_eq idx hidx r
  have hw := window_eq r
  have hr := r.isLt
  unfold ScatterDims.resultIdx?
  rw [dif_pos ?_]
  · refine congrArg some (funext fun a => Fin.ext ?_)
    show (scat.start (ix1 r) idx a + scat.window (ix1 r) a).toNat = (ix2 r r a).val
    rw [hs, hw]
    match a with | ⟨0, _⟩ => simp | ⟨1, _⟩ => simp
  · intro a
    rw [hs, hw]
    have hsz : S16384x16384.size a = 16384 := by match a with | ⟨0, _⟩ => rfl | ⟨1, _⟩ => rfl
    rw [hsz]
    omega

/-- The scatter-add read at `(i, k)`: the operand there plus, on the diagonal, update `i`. -/
theorem scatterAdd_diag (x : S16384x16384.Idx → EReal) (upd : S16384.Idx → EReal) (i k : Fin 16384) :
    Ideal.hostScatterAdd scat x idx upd (ix2 i k) = x (ix2 i k) + (if i = k then upd (ix1 i) else 0) := by
  unfold Ideal.hostScatterAdd
  refine congrArg (x (ix2 i k) + ·) ?_
  rw [Finset.sum_filter]
  by_cases hik : i = k
  · subst hik
    rw [if_pos rfl, Finset.sum_eq_single (ix1 i)]
    · rw [if_pos (resultIdx_diag idx hidx i)]
    · intro j _ hj
      obtain ⟨r, rfl⟩ : ∃ r : Fin 16384, j = ix1 r := ⟨j 0, eq_ix1 j⟩
      rw [if_neg]
      rw [resultIdx_diag idx hidx r]
      intro h
      have h0 : r = i := congrFun (Option.some.inj h) 0
      exact hj (by rw [h0])
    · intro h; exact absurd (Finset.mem_univ _) h
  · rw [if_neg hik]
    refine Finset.sum_eq_zero fun j _ => ?_
    obtain ⟨r, rfl⟩ : ∃ r : Fin 16384, j = ix1 r := ⟨j 0, eq_ix1 j⟩
    rw [if_neg]
    rw [resultIdx_diag idx hidx r]
    intro h
    have h0 : r = i := congrFun (Option.some.inj h) 0
    have h1 : r = k := congrFun (Option.some.inj h) 1
    exact hik (h0.symm.trans h1)

end Land

/-! ## The adjacency with self-loops -/

/-- The reference's scattered array at `(i, k)`: `A (i, k)`, plus the float `1.0` on the diagonal. -/
theorem adj_apply (A : (⟨S16384x16384, .f32⟩ : BufTy).Contents (Elt Ideal)) (i k : Fin 16384) :
    val_main_v16 (F := Ideal) A (ix2 i k) = A (ix2 i k) + (if i = k then one else 0) := by
  unfold val_main_v16
  simp only [Host.scatterAdd, Ideal.hostScatterAdd_def]
  rw [scatterAdd_diag _ idx_word A _ i k, val_main_v15_apply, val_main_cst_apply]
  rfl

end Cert.Gcn

end
-- ==== Proof.PreDecode.lean ====
/-
  The precondition, decoded.

  The precondition is the conjunction of five `all`s: `|v| < +∞` at every entry `v` of each of the four arguments, and
  `(∑ k, A (i, k)) + 1 > 0` at every row `i` of `A`. An extended real whose absolute value `max v (-v)` is below `⊤` is
  neither `⊥` nor `⊤`: it is a real number. So every entry of the arguments is a real, and every row sum of `A` plus the
  self-loop's weight is positive.
-/
import proofs.«110735_j22325240004644_2_alg».proof.Pre_finite_inputs
import proofs.«110735_j22325240004644_2_alg».proof.Proof.Spec
import Idealize.ShloMosaic.Lib.ReduceAll
import Idealize.ShloMosaic.Lib.Pipeline.Value
import Idealize.ShloMosaic.PureOps.Ideal.Laws

noncomputable section

namespace Cert.Gcn

open Idealize.ShloMosaic Idealize.ShloMosaic.ValueIdx

/-- The rank-0 shape has one index. -/
theorem scalar_subsingleton : Subsingleton (⟨0, ![]⟩ : Shape).Idx := ⟨fun a b => funext fun d => d.elim0⟩

/-- The float word `0x7F800000` is `+∞`. -/
theorem ofBits_inf : Ideal.ofBits .f32 0x7F800000#32 = ⊤ := by simp [Ideal.ofBits, Ideal.ieee]

/-- The float word `0x3F800000` is `1`. -/
theorem one_eq : one = ((1 : ℝ) : EReal) := by
  unfold one
  simp [Ideal.ofBits, Ideal.ieee]
  rw [← EReal.coe_mul, ← EReal.coe_one]
  norm_num

/-- An extended real whose absolute value is below `+∞` is a real number. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | top => simp [Ideal.cmp] at h
  | coe r => exact ⟨r, rfl⟩

/-- The comparison `X > Y` answering `1` says `Y < X`. -/
theorem lt_of_cmp_ogt (X Y : EReal) (h : Ideal.cmp .ogt X Y = 1#1) : Y < X := by
  unfold Ideal.cmp at h
  by_contra hn
  simp [hn] at h

/-- `all (|v| < +∞)` over an array says every entry is a real number. -/
theorem finite_of_all {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf v) (broadcastInDim s ![] hb (constant (F := Ideal) ⟨0, ![]⟩ .f32 0x7F800000#32)))
      (constantI ⟨0, ![]⟩ 1 1#1) hr hu ix0 = 1#1) (p : s.Idx) : ∃ r : ℝ, v p = (r : EReal) := by
  haveI := scalar_subsingleton
  have hp := Host.reduce_andi_all _ _ hr hu ix0 h p
  rw [cmpf_apply, broadcastInDim_apply _ hb _ p ix0 (fun a => a.elim0)] at hp
  exact real_of_abs_lt_inf (v p) hp

/-- `all ((∑ k, A (i, k)) + 1 > 0)` over the rows says every row sum plus the self-loop's weight is positive. -/
theorem rowsum_pos (A : FVec Ideal ⟨2, ![16384, 16384]⟩ .f32)
    (hr : (⟨2, ![16384, 16384]⟩ : Shape).ReducesTo [1] ⟨1, ![16384]⟩) (hu : 0 < (⟨0, ![]⟩ : Shape).numel)
    (hb : (⟨0, ![]⟩ : Shape).BroadcastsInDim ⟨1, ![16384]⟩ (![] : Fin 0 → Fin 1))
    (hr0 : (⟨1, ![16384]⟩ : Shape).ReducesTo [0] ⟨0, ![]⟩)
    (h : Host.reduce IntOp.andi
      (cmpf .ogt
        (addf (Host.reduceAdd A (constant (F := Ideal) ⟨0, ![]⟩ .f32 0x00000000#32) hr hu)
          (broadcastInDim ⟨1, ![16384]⟩ ![] hb (constant (F := Ideal) ⟨0, ![]⟩ .f32 0x3F800000#32)))
        (broadcastInDim ⟨1, ![16384]⟩ ![] hb (constant (F := Ideal) ⟨0, ![]⟩ .f32 0x00000000#32)))
      (constantI ⟨0, ![]⟩ 1 1#1) hr0 hu ix0 = 1#1) (i : Fin 16384) :
    0 < (∑ k : Fin 16384, A (ix2 i k)) + one := by
  haveI := scalar_subsingleton
  have hp := Host.reduce_andi_all _ _ hr0 hu ix0 h (ix1 i)
  have hsum : Ideal.hostReduceAdd hr A (Ideal.ofBits .f32 0x00000000#32) (ix1 i) = ∑ k : Fin 16384, A (ix2 i k) := by
    rw [Ideal.hostReduceAdd_single hr (by decide), Ideal.ofBits_zero_f32, zero_add]
    refine Finset.sum_congr rfl fun k _ => ?_
    exact congrArg A (funext fun a => Fin.ext (by match a with | ⟨0, _⟩ => rfl | ⟨1, _⟩ => rfl))
  rw [cmpf_apply, addf_apply, broadcastInDim_apply _ hb _ (ix1 i) ix0 (fun a => a.elim0),
    broadcastInDim_apply _ hb _ (ix1 i) ix0 (fun a => a.elim0)] at hp
  simp only [Host.reduceAdd, Ideal.hostReduceAdd_def, constant_apply, Ideal.cmpf_def] at hp
  rw [hsum, Ideal.ofBits_zero_f32] at hp
  exact lt_of_cmp_ogt _ _ hp

/-- The precondition decoded: the four arguments hold real numbers, and every row sum of `A` plus one is positive. -/
theorem pre_decode [Cert.Pre_finite_inputs.Facts]
    (x : FVec Ideal ⟨2, ![16384, 512]⟩ .f32) (A : FVec Ideal ⟨2, ![16384, 16384]⟩ .f32)
    (W : FVec Ideal ⟨2, ![256, 512]⟩ .f32) (b : FVec Ideal ⟨1, ![256]⟩ .f32)
    (hpre : Cert.Pre_finite_inputs.fn (F := Ideal) x A W b = (fun _ => 1#1)) :
    (∀ p, ∃ r : ℝ, x p = (r : EReal)) ∧ (∀ p, ∃ r : ℝ, A p = (r : EReal)) ∧ (∀ p, ∃ r : ℝ, W p = (r : EReal))
      ∧ (∀ p, ∃ r : ℝ, b p = (r : EReal)) ∧ (∀ i : Fin 16384, 0 < (∑ k : Fin 16384, A (ix2 i k)) + one) := by
  have h0 := congrFun hpre ix0
  dsimp only [Cert.Pre_finite_inputs.fn, Cert.Pre_finite_inputs.fn_part1] at h0
  obtain ⟨h1, hpos⟩ := IntOp.andi_eq_one.1 h0
  obtain ⟨h2, hb⟩ := IntOp.andi_eq_one.1 h1
  obtain ⟨h3, hW⟩ := IntOp.andi_eq_one.1 h2
  obtain ⟨hx, hA⟩ := IntOp.andi_eq_one.1 h3
  exact ⟨finite_of_all x _ _ _ hx, finite_of_all A _ _ _ hA, finite_of_all W _ _ _ hW, finite_of_all b _ _ _ hb,
    rowsum_pos A _ _ _ _ hpos⟩

end Cert.Gcn

end
-- ==== Proof.RefBridge.lean ====
/-
  The reference program computes the graph-convolution layer `Cert.Gcn.out`.

  Read at `(i, c)`, the reference's result is `∑ k, ((Â (i, k) · d i) · d k) · h k c` with `Â = A + I` (the scatter-add
  of `1.0` on the diagonal), `d i = rsqrt (∑ k, Â (i, k)) = rsqrt ((∑ k, A (i, k)) + 1)` and `h = x·Wᵀ + b`. Under the
  precondition every entry of the arguments is a real number and every `(∑ k, A (i, k)) + 1` is positive, so every
  `d i` and every `h k c` is a real number, and the self-loop split (over the reals, coerced) rearranges the sum into
  `d i · (∑ j, A (i, j) · (d j · h j c)) + (d i · d i) · h i c`.
-/
import proofs.«110735_j22325240004644_2_alg».proof.Proof.SelfLoopLaw
import proofs.«110735_j22325240004644_2_alg».proof.Proof.AdjSelfLoop
import proofs.«110735_j22325240004644_2_alg».proof.Proof.PreDecode

noncomputable section

namespace Cert.Gcn

open Idealize.ShloMosaic Idealize.ShloMosaic.ValueIdx Cert.ReferenceIdeal Cert.ReferenceIdeal.Gen Cert.ReferenceIdeal.Read

/-! ## The reference read at an index -/

/-- The reference's linear layer at `(k, c)` is `lin`. -/
theorem ref_lin (x : (⟨S16384x512, .f32⟩ : BufTy).Contents (Elt Ideal)) (W : (⟨S256x512, .f32⟩ : BufTy).Contents (Elt Ideal))
    (b : (⟨S256, .f32⟩ : BufTy).Contents (Elt Ideal)) (k : Fin 16384) (c : Fin 256) :
    val_main_v29 (F := Ideal) x W b (ix2 k c) = lin x W b k c := by
  have el : ∀ m : Fin 512, lidx_main_v26 (ix2 k c) m = ix2 k m := fun m =>
    funext fun a => Fin.ext (by match a with | ⟨0, _⟩ => rfl | ⟨1, _⟩ => rfl)
  have er : ∀ m : Fin 512, idx_main_v25 (ridx_main_v26 (ix2 k c) m) = ix2 c m := fun m =>
    funext fun a => Fin.ext (by match a with | ⟨0, _⟩ => rfl | ⟨1, _⟩ => rfl)
  have eb : idx_main_v27 (idx_main_v28 (ix2 k c)) = ix1 c :=
    funext fun a => Fin.ext (by match a with | ⟨0, _⟩ => rfl)
  rw [val_main_v29_apply, val_main_v26_apply, val_main_v28_apply, val_main_v27_apply]
  simp only [val_main_v25_apply, el, er, eb, Ideal.addf_def]
  rfl

/-- The reference's degree scale at node `i` is `deg`. -/
theorem ref_deg (A : (⟨S16384x16384, .f32⟩ : BufTy).Contents (Elt Ideal)) (i : Fin 16384) :
    val_main_v18 (F := Ideal) A (ix1 i) = deg A i := by
  have e : ∀ k : Fin 16384, idx_main_v17 (ix1 i) k = ix2 i k := fun k =>
    funext fun a => Fin.ext (by match a with | ⟨0, _⟩ => rfl | ⟨1, _⟩ => rfl)
  rw [val_main_v18_apply, val_main_v17_apply, val_main_cst_3_apply]
  simp only [e, adj_apply, Ideal.hostUnary_rsqrt_def, Ideal.ofBits_def, Ideal.ofBits_zero_f32, zero_add,
    Finset.sum_add_distrib, Finset.sum_ite_eq, Finset.mem_univ, if_true]
  rfl

/-- The reference's result at `(i, c)`: the normalised adjacency with self-loops against the linear layer. -/
theorem ref_at (x : (⟨S16384x512, .f32⟩ : BufTy).Contents (Elt Ideal)) (A : (⟨S16384x16384, .f32⟩ : BufTy).Contents (Elt Ideal))
    (W : (⟨S256x512, .f32⟩ : BufTy).Contents (Elt Ideal)) (b : (⟨S256, .f32⟩ : BufTy).Contents (Elt Ideal))
    (i : Fin 16384) (c : Fin 256) :
    val_main_v30 (F := Ideal) x A W b (ix2 i c)
      = ∑ k : Fin 16384, (((A (ix2 i k) + if i = k then one else 0) * deg A i) * deg A k) * lin x W b k c := by
  rw [val_main_v30_apply]
  refine Finset.sum_congr rfl fun k _ => ?_
  have el : lidx_main_v30 (ix2 i c) k = ix2 i k :=
    funext fun a => Fin.ext (by match a with | ⟨0, _⟩ => rfl | ⟨1, _⟩ => rfl)
  have er : ridx_main_v30 (ix2 i c) k = ix2 k c :=
    funext fun a => Fin.ext (by match a with | ⟨0, _⟩ => rfl | ⟨1, _⟩ => rfl)
  have ei : idx_main_v19 (idx_main_v20 (ix2 i k)) = ix1 i :=
    funext fun a => Fin.ext (by match a with | ⟨0, _⟩ => rfl)
  have ek : idx_main_v22 (idx_main_v23 (ix2 i k)) = ix1 k :=
    funext fun a => Fin.ext (by match a with | ⟨0, _⟩ => rfl)
  rw [el, er, val_main_v24_apply, val_main_v21_apply, val_main_v20_apply, val_main_v19_apply, val_main_v23_apply,
    val_main_v22_apply, ei, ek, adj_apply, ref_deg, ref_deg, ref_lin]
  simp only [Ideal.mulf_def]

/-! ## The scales and the linear layer are real numbers -/

/-- Where `A` holds real numbers and the row sum plus one is positive, the degree scale is a real number. -/
theorem deg_real (A : SA.Idx → EReal) (hA : ∀ p, ∃ r : ℝ, A p = (r : EReal)) (j : Fin 16384)
    (hpos : 0 < (∑ k : Fin 16384, A (ix2 j k)) + one) : ∃ d : ℝ, deg A j = (d : EReal) := by
  choose ar har using hA
  have hs : (∑ k : Fin 16384, A (ix2 j k)) + one = (((∑ k : Fin 16384, ar (ix2 j k)) + 1 : ℝ) : EReal) := by
    rw [one_eq, EReal.coe_add, Cert.Lib.EReal_coe_finset_sum]
    simp only [har]
  unfold deg
  rw [hs] at hpos ⊢
  have hp : 0 < (∑ k : Fin 16384, ar (ix2 j k)) + 1 := EReal.coe_pos.1 hpos
  rw [Ideal.rsqrt_coe, if_neg (not_lt.2 hp.le), if_neg hp.ne']
  exact ⟨_, rfl⟩

/-- Where the arguments hold real numbers, the linear layer is a real number. -/
theorem lin_real (x : SX.Idx → EReal) (W : SW.Idx → EReal) (b : SB.Idx → EReal)
    (hx : ∀ p, ∃ r : ℝ, x p = (r : EReal)) (hW : ∀ p, ∃ r : ℝ, W p = (r : EReal)) (hb : ∀ p, ∃ r : ℝ, b p = (r : EReal))
    (j : Fin 16384) (c : Fin 256) : ∃ r : ℝ, lin x W b j c = (r : EReal) := by
  choose xr hxr using hx
  choose wr hwr using hW
  choose br hbr using hb
  refine ⟨(∑ m : Fin 512, xr (ix2 j m) * wr (ix2 c m)) + br (ix1 c), ?_⟩
  unfold lin
  rw [EReal.coe_add, Cert.Lib.EReal_coe_finset_sum]
  simp only [hxr, hwr, hbr, EReal.coe_mul]

/-! ## The reference is the layer -/

/-- Under the precondition the reference's result is `out`. -/
theorem ref_eq_out [Cert.Pre_finite_inputs.Facts]
    (x : (⟨Cert.ReferenceIdeal.S16384x512, .f32⟩ : BufTy).Contents (Elt Ideal))
    (A : (⟨Cert.ReferenceIdeal.S16384x16384, .f32⟩ : BufTy).Contents (Elt Ideal))
    (W : (⟨Cert.ReferenceIdeal.S256x512, .f32⟩ : BufTy).Contents (Elt Ideal))
    (b : (⟨Cert.ReferenceIdeal.S256, .f32⟩ : BufTy).Contents (Elt Ideal))
    (hpre : Cert.Pre_finite_inputs.fn (F := Ideal) x A W b = (fun _ => 1#1)) :
    Cert.ReferenceIdeal.Read.val_main_v30 (F := Ideal) x A W b = Cert.Gcn.out x A W b := by
  obtain ⟨hx, hA, hW, hb, hpos⟩ := pre_decode x A W b hpre
  funext o
  obtain ⟨i, c, rfl⟩ : ∃ (i : Fin 16384) (c : Fin 256), o = ix2 i c := ⟨o 0, o 1, eq_ix2 o⟩
  rw [ref_at, out_ix2]
  unfold outAt
  have hdeg : ∀ j : Fin 16384, ∃ d : ℝ, deg A j = (d : EReal) := fun j => deg_real A hA j (hpos j)
  have hlin : ∀ j : Fin 16384, ∃ r : ℝ, lin x W b j c = (r : EReal) := fun j => lin_real x W b hx hW hb j c
  choose ar har using hA
  choose dr hdr using hdeg
  choose lr hlr using hlin
  simp only [har, hdr, hlr, one_eq]
  exact selfLoop_ereal i (fun k => ar (ix2 i k)) dr lr

end Cert.Gcn

end
-- ==== Proof.KI.Host.lean ====
/-
  What the fused kernel finds in its operands: the contents of the buffers after the ten host operations.

  Between the two kernels the host computes, from the arguments `x`, `W`, `b` and the degree vector `d` the first
  kernel left: the linear layer `h = x·Wᵀ + b` (a transpose, a product, the bias broadcast to every row, a sum); the
  scaled features `d j · h j q` (the degree vector broadcast to a column and along the rows, a product, a change of
  format that is the identity on the extended reals); and the degree vector as a column. None of them writes the
  adjacency matrix. Read at an index: the linear layer is `lin x W b j q`, the scaled features are
  `deg A j · lin x W b j q`, the column is `deg A j`.
-/
import proofs.«110735_j22325240004644_2_alg».proof.Proof.KI.Deg
import proofs.«110735_j22325240004644_2_alg».proof.Proof.RefBridge
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr

/-! ## The linear layer's term -/

/-- The host's five operations for the linear layer — the transpose of `W`, the product of `x` with it, the bias
    broadcast to a row and then to every row, and their sum — are the reference's linear layer of the same arguments. -/
theorem host_lin_eq (x : FVec Ideal S16384x512 .f32) (W : FVec Ideal S256x512 .f32) (b : FVec Ideal S256 .f32) :
    addf (F := Ideal)
        (Host.dotGeneral (F := Ideal) dot_S16384x512_S512x256_S16384x256_1_0_0_1_n_n none x
          (transpose S512x256 [1, 0] W transposes_S256x512_S512x256_1_0))
        (broadcastInDim S16384x256 ![0, 1] bcast_S1x256_S16384x256_0_1 (broadcastInDim S1x256 ![1] bcast_S256_S1x256_1 b))
      = Cert.ReferenceIdeal.Read.val_main_v29 (F := Ideal) x W b := rfl

section Run
variable (m : (ℓ : Loc nD τ sig) → Buf (Elt Ideal) ℓ) (ρ : Dev nD → PrngReg) (c : Dev nD)

/-! ## Region 0 leaves the arguments as launched and the degree vector in its result -/

theorem W2_arg0 : W2 m ρ c (Proc.devRef .tc main_arg0) = m ((c : Thread nD τ).loc main_arg0) :=
  W2_of_ne m ρ c main_arg0 (by decide)
theorem W2_arg2 : W2 m ρ c (Proc.devRef .tc main_arg2) = m ((c : Thread nD τ).loc main_arg2) :=
  W2_of_ne m ρ c main_arg2 (by decide)
theorem W2_arg3 : W2 m ρ c (Proc.devRef .tc main_arg3) = m ((c : Thread nD τ).loc main_arg3) :=
  W2_of_ne m ρ c main_arg3 (by decide)
theorem W2_v0 : W2 m ρ c (Proc.devRef .tc main_v0) = fun i : S16384.Idx => Cert.Gcn.deg (m ((c : Thread nD τ).loc main_arg1)) (i 0) :=
  (W2_arr m ρ c 1).trans (final0 m ρ c)

/-! ## The host operations' results as terms -/

/-- No host operation writes the adjacency matrix, and region 0 only reads it. -/
theorem V3_arg1 : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W2_arr m ρ c 0).trans (((dat0 (V0 m ρ) c).arrAt_in 0 rfl _).trans (A_eq0 (V0 m ρ) c 0))
    _ = m ((c : Thread nD τ).loc main_arg1) := rfl

theorem V3_v5_eq : (V3 m ρ c main_v5 : S16384x256.Idx → EReal)
    = Cert.ReferenceIdeal.Read.val_main_v29 (F := Ideal) (m ((c : Thread nD τ).loc main_arg0)) (m ((c : Thread nD τ).loc main_arg2)) (m ((c : Thread nD τ).loc main_arg3)) := by
  show StableHlo.after hostOps1 (W2 m ρ c) (Proc.devRef .tc main_v5) = _
  after_results
  rw [W2_arg0, W2_arg2, W2_arg3]
  exact host_lin_eq _ _ _

theorem V3_v10_eq : (V3 m ρ c main_v10 : S16384x1.Idx → EReal)
    = broadcastInDim S16384x1 ![0] bcast_S16384_S16384x1_0 (fun i : S16384.Idx => Cert.Gcn.deg (m ((c : Thread nD τ).loc main_arg1)) (i 0)) := by
  show StableHlo.after hostOps1 (W2 m ρ c) (Proc.devRef .tc main_v10) = _
  after_results
  rw [W2_v0]

theorem V3_v9_eq : (V3 m ρ c main_v9 : S16384x256.Idx → EReal)
    = truncf (F := Ideal) .bf16 (mulf (F := Ideal)
        (broadcastInDim S16384x256 ![0, 1] bcast_S16384x1_S16384x256_0_1
          (broadcastInDim S16384x1 ![0] bcast_S16384_S16384x1_0 (fun i : S16384.Idx => Cert.Gcn.deg (m ((c : Thread nD τ).loc main_arg1)) (i 0))))
        (Cert.ReferenceIdeal.Read.val_main_v29 (F := Ideal) (m ((c : Thread nD τ).loc main_arg0)) (m ((c : Thread nD τ).loc main_arg2)) (m ((c : Thread nD τ).loc main_arg3))))
      bitsLt_bf16_f32 := by
  show StableHlo.after hostOps1 (W2 m ρ c) (Proc.devRef .tc main_v9) = _
  after_results
  rw [W2_v0, W2_arg0, W2_arg2, W2_arg3, host_lin_eq]

/-! ## The results read at an index -/

/-- A vector broadcast to one column reads, at `(j, 0)`, its entry `j`. -/
theorem col_apply (v : S16384.Idx → EReal) (j : Fin 16384) :
    broadcastInDim S16384x1 ![0] bcast_S16384_S16384x1_0 v (ix2 j (0 : Fin 1)) = v (ix1 j) :=
  broadcastInDim_apply _ bcast_S16384_S16384x1_0 v (ix2 j (0 : Fin 1)) (ix1 j) fun a => by
    match a with
    | ⟨0, _⟩ => show j.val = if (16384 : Nat) = 1 then 0 else j.val; rw [if_neg (by decide)]

/-- A column broadcast along the rows reads, at `(j, q)`, the column's entry `(j, 0)`. -/
theorem colRows_apply (v : S16384x1.Idx → EReal) (j : Fin 16384) (q : Fin 256) :
    broadcastInDim S16384x256 ![0, 1] bcast_S16384x1_S16384x256_0_1 v (ix2 j q) = v (ix2 j (0 : Fin 1)) :=
  broadcastInDim_apply _ bcast_S16384x1_S16384x256_0_1 v (ix2 j q) (ix2 j (0 : Fin 1)) fun a => by
    match a with
    | ⟨0, _⟩ => show j.val = if (16384 : Nat) = 1 then 0 else j.val; rw [if_neg (by decide)]
    | ⟨1, _⟩ => show 0 = if (1 : Nat) = 1 then 0 else q.val; rw [if_pos rfl]

theorem V3_v5_apply (j : Fin 16384) (q : Fin 256) :
    V3 m ρ c main_v5 (ix2 j q) = Cert.Gcn.lin (m ((c : Thread nD τ).loc main_arg0)) (m ((c : Thread nD τ).loc main_arg2)) (m ((c : Thread nD τ).loc main_arg3)) j q := by
  rw [V3_v5_eq]
  exact Cert.Gcn.ref_lin _ _ _ j q

theorem V3_v10_apply (j : Fin 16384) :
    V3 m ρ c main_v10 (ix2 j (0 : Fin 1)) = Cert.Gcn.deg (m ((c : Thread nD τ).loc main_arg1)) j := by
  rw [V3_v10_eq, col_apply]

theorem V3_v9_apply (j : Fin 16384) (q : Fin 256) :
    V3 m ρ c main_v9 (ix2 j q) = Cert.Gcn.deg (m ((c : Thread nD τ).loc main_arg1)) j
      * Cert.Gcn.lin (m ((c : Thread nD τ).loc main_arg0)) (m ((c : Thread nD τ).loc main_arg2)) (m ((c : Thread nD τ).loc main_arg3)) j q := by
  rw [V3_v9_eq, truncf_apply, mulf_apply, Cert.Gcn.ref_lin, colRows_apply, col_apply]

end Run

end Cert.KernelIdeal.Fr

end
-- ==== Proof.LibTileSum.lean ====
/-
  A sum over `K * T` consecutive indices cut into `K` tiles of `T` consecutive indices each.

  The index `i < K * T` is written `i = k * T + j` with `k < K` the tile and `j < T` the position inside the tile; the
  map `(k, j) ↦ k * T + j` is a bijection of `Fin K × Fin T` with `Fin (K * T)`, so the sum of `f` over all indices is
  the sum over the tiles of each tile's sum (`sum_tiles`). A running total that starts at `0` and adds one tile's sum
  at each of `K` steps therefore ends at the whole sum (`sum_tiles_fold`). Both hold in any additive commutative monoid.
-/
import Mathlib.Data.Fintype.BigOperators
import Mathlib.Logic.Equiv.Fin.Basic
import Mathlib.Algebra.BigOperators.Fin

open scoped BigOperators

namespace Cert.Lib

/-- Position `j` of tile `k` is a valid index: `k * T + j < (k + 1) * T ≤ K * T`. -/
theorem tile_lt {K T k : ℕ} (hk : k < K) (j : Fin T) : k * T + j.val < K * T :=
  calc k * T + j.val < k * T + T := Nat.add_lt_add_left j.isLt _
    _ = (k + 1) * T := (Nat.succ_mul k T).symm
    _ ≤ K * T := Nat.mul_le_mul_right T hk

/-- The sum over `K * T` indices is the sum over the `K` tiles of the sum over each tile's `T` positions: re-index the
    right side along the bijection `(k, j) ↦ k * T + j` and split the sum over the product into the double sum. -/
theorem sum_tiles {M : Type*} [AddCommMonoid M] (K T : ℕ) (f : Fin (K * T) → M) :
    ∑ k : Fin K, ∑ j : Fin T, f ⟨k.val * T + j.val, tile_lt k.isLt j⟩ = ∑ i : Fin (K * T), f i := by
  refine Eq.trans ?_ (Equiv.sum_comp (finProdFinEquiv (m := K) (n := T)) f)
  rw [Fintype.sum_prod_type]
  refine Finset.sum_congr rfl fun k _ => Finset.sum_congr rfl fun j _ => congrArg f (Fin.ext ?_)
  show k.val * T + j.val = j.val + T * k.val
  rw [Nat.mul_comm, Nat.add_comm]

/-- The running form: a total `acc` that starts at `0` and at step `k < K` adds the sum of tile `k` is, after `K` steps,
    the sum over all `K * T` indices. After `n ≤ K` steps the total is the sum of the first `n` tiles (induction on
    `n`); at `n = K` that is the double sum of `sum_tiles`. -/
theorem sum_tiles_fold {M : Type*} [AddCommMonoid M] (K T : ℕ) (f : Fin (K * T) → M) (acc : ℕ → M) (h0 : acc 0 = 0)
    (hs : ∀ k (hk : k < K), acc (k + 1) = acc k + ∑ j : Fin T, f ⟨k * T + j.val, tile_lt hk j⟩) :
    acc K = ∑ i : Fin (K * T), f i := by
  have key : ∀ n, n ≤ K → acc n = ∑ k ∈ Finset.range n,
      (if hk : k < K then ∑ j : Fin T, f ⟨k * T + j.val, tile_lt hk j⟩ else 0) := by
    intro n
    induction n with
    | zero => intro _; rw [Finset.range_zero, Finset.sum_empty]; exact h0
    | succ n ih =>
      intro hn
      have hk : n < K := hn
      rw [Finset.sum_range_succ, ← ih (Nat.le_of_lt hk), dif_pos hk, hs n hk]
  rw [key K (Nat.le_refl K), ← sum_tiles K T f, Finset.sum_fin_eq_sum_range]

/-- `sum_tiles` at 16 tiles of 1024, stated over `Fin 16384`. -/
theorem sum_tiles_16_1024 {M : Type*} [AddCommMonoid M] (f : Fin 16384 → M) :
    ∑ k : Fin 16, ∑ j : Fin 1024, f ⟨k.val * 1024 + j.val, by omega⟩ = ∑ i : Fin 16384, f i :=
  sum_tiles 16 1024 f

/-- `sum_tiles_fold` at 16 tiles of 1024, stated over `Fin 16384`. -/
theorem sum_tiles_fold_16_1024 {M : Type*} [AddCommMonoid M] (f : Fin 16384 → M) (acc : ℕ → M) (h0 : acc 0 = 0)
    (hs : ∀ k (hk : k < 16), acc (k + 1) = acc k + ∑ j : Fin 1024, f ⟨k * 1024 + j.val, by omega⟩) :
    acc 16 = ∑ i : Fin 16384, f i :=
  sum_tiles_fold 16 1024 f acc h0 hs

end Cert.Lib
-- ==== Proof.KI.Value.lean ====
/-
  The idealized kernel's result array is the graph-convolution layer `Cert.Gcn.out` of the four arguments.

  The output's row block `i` is written back at the point (row tile `i`, column tile 15). There the accumulator holds, at
  `(r, q)`, the sum over the sixteen column tiles of the block products, which re-indexed is the whole row's sum
  `∑ j, A (R, j) · (d j · h j q)` with `R = 2048·i + r` (the scaled features the region finds are `d j · h j q`); the
  degree column it finds is `d R` and the feature rows `h R q`; so the block's entry is `d R · (∑ j, …) + (d R · d R) · h R q`,
  the layer's output at `(R, q)`. The eight blocks tile the array.
-/
import proofs.«110735_j22325240004644_2_alg».proof.Proof.KI.Acc
import proofs.«110735_j22325240004644_2_alg».proof.Proof.KI.Host
import proofs.«110735_j22325240004644_2_alg».proof.Proof.LibTileSum

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Fr Idealize.ShloMosaic.ValueIdx Idealize.ShloMosaic.Pipeline

variable {F : FTy → Type} [FloatOps F]

local notation "𝕄" => MT nD τ sig Unit (Elt F) ℕ (UR sig nD τ) ℕ

variable (m : (ℓ : Loc nD τ sig) → Buf (Elt Ideal) ℓ) (ρ : Dev nD → PrngReg) (c : Dev nD)

/-- The four argument arrays as arrays of extended reals. -/
abbrev aX : Cert.Gcn.SX.Idx → EReal := m ((c : Thread nD τ).loc main_arg0)
abbrev aA : Cert.Gcn.SA.Idx → EReal := m ((c : Thread nD τ).loc main_arg1)
abbrev aW : Cert.Gcn.SW.Idx → EReal := m ((c : Thread nD τ).loc main_arg2)
abbrev aB : Cert.Gcn.SB.Idx → EReal := m ((c : Thread nD τ).loc main_arg3)

/-- The summand of the neighbour sum of row `R`, feature `q`. -/
def term (R : Fin 16384) (q : Fin 256) (j : Fin 16384) : EReal :=
  aA m c (ix2 R j) * (Cert.Gcn.deg (aA m c) j * Cert.Gcn.lin (aX m c) (aW m c) (aB m c) j q)

/-- One point's addend, read through the arrays the region finds: a tile of the row's sum. -/
theorem addend_eq (i s : ℕ) (hs : s < 16) (hlt : 16 * i + s < cfg1.N) (r : Fin 2048) (q : Fin 256) (R : Fin 16384)
    (hR : R.val = 2048 * i + r.val) :
    addend (V3 m ρ) c i s (ix2 r q) = ∑ jj : Fin 1024, term m c R q ⟨s * 1024 + jj.val, by omega⟩ := by
  unfold addend
  rw [dif_pos hlt]
  unfold addendAt
  refine Finset.sum_congr rfl fun jj _ => ?_
  have hv := ptOf_val i s hlt
  show blkA (V3 m ρ) c (ptOf i s hlt) (ix2 r jj) * tileHs (V3 m ρ) c (ptOf i s hlt) (ix2 jj q) = _
  have eA : blkA (V3 m ρ) c (ptOf i s hlt) (ix2 r jj) = aA m c (ix2 R ⟨s * 1024 + jj.val, by omega⟩) :=
    (blk0_apply (V3 m ρ) c (ptOf i s hlt) r jj R ⟨s * 1024 + jj.val, by omega⟩ (by rw [hv]; omega)
      (by rw [hv]; show s * 1024 + jj.val = 1024 * ((16 * i + s) % 16) + jj.val; omega)).trans
      (congrFun (V3_arg1 m ρ c) _)
  have eH : tileHs (V3 m ρ) c (ptOf i s hlt) (ix2 jj q)
      = Cert.Gcn.deg (aA m c) ⟨s * 1024 + jj.val, by omega⟩ * Cert.Gcn.lin (aX m c) (aW m c) (aB m c) ⟨s * 1024 + jj.val, by omega⟩ q :=
    (hsTile_apply (V3 m ρ) c (ptOf i s hlt) jj q ⟨s * 1024 + jj.val, by omega⟩
      (by rw [hv]; show s * 1024 + jj.val = 1024 * ((16 * i + s) % 16) + jj.val; omega)).trans
      (V3_v9_apply m ρ c _ q)
  rw [eA, eH]
  rfl

/-- The finished accumulator at the last column tile is the whole row's sum. -/
theorem scratch_last (t : Fin cfg1.N) (i : ℕ) (ht : t.val = 16 * i + 15) (r : Fin 2048) (q : Fin 256) (R : Fin 16384) (hR : R.val = 2048 * i + r.val) :
    (outsAt1 (V3 m ρ) c t.val t.isLt).2 (ix2 r q) = ∑ j : Fin 16384, term m c R q j := by
  rw [scratch_sum (V3 m ρ) c i 15 (by omega) t ht (ix2 r q), zero_add, Finset.sum_range]
  rw [← Cert.Lib.sum_tiles_16_1024 (term m c R q)]
  refine Finset.sum_congr rfl fun s _ => ?_
  have hlt : 16 * i + s.val < cfg1.N := by have := s.isLt; have := t.isLt; omega
  exact addend_eq m ρ c i s.val s.isLt hlt r q R hR

/-- The output block's entry at the flushing point is the layer's output there. -/
theorem out_block_apply (t : Fin cfg1.N) (h15 : t.val % 16 = 15) (r : Fin 2048) (q : Fin 256) (R : Fin 16384)
    (hR : R.val = 2048 * (t.val / 16) + r.val) :
    k1_pay3 (F := Ideal) (iblk1 (V3 m ρ) c 3 t) ((outsAt1 (V3 m ρ) c t.val t.isLt).2) (iblk1 (V3 m ρ) c 2 t) (ix2 r q)
      = Cert.Gcn.outAt (aX m c) (aA m c) (aW m c) (aB m c) R q := by
  have ht : t.val = 16 * (t.val / 16) + 15 := by omega
  rw [Cert.KernelIdeal.Pay.pay3_apply, blk3_apply (V3 m ρ) c t r R hR, blk2_apply (V3 m ρ) c t r q R hR, V3_v10_apply, V3_v5_apply,
    scratch_last m ρ c t (t.val / 16) ht r q R hR]
  rfl

/-- What the flushing point writes back is its block of the layer's output. -/
theorem flushed4_eq (t : Fin cfg1.N) (hf : (cfg1.win 4).flush t = true) :
    (dat1 (V3 m ρ) c).flushed 4 t = ((cfg1.win 4).blk t).view.read (Elt Ideal)
      (Cert.Gcn.out (aX m c) (aA m c) (aW m c) (aB m c)) := by
  have h15 : t.val % 16 = 15 := (flush1_4 t).mp hf
  have h0 : ¬t.val % 16 = 0 := by omega
  show (cfg1.win 4).cut (grid1.coords t) ((dat1 (V3 m ρ) c).after 4 t) = _
  rw [after1_4]
  have e1 : (outsAt1 (V3 m ρ) c t.val t.isLt).1
      = k1_pay3 (iblk1 (V3 m ρ) c 3 t) ((outsAt1 (V3 m ρ) c t.val t.isLt).2) (iblk1 (V3 m ρ) c 2 t) := by
    rw [outsAt1_C (V3 m ρ) c t h0 h15]
    dsimp only
    exact outC_eq' (V3 m ρ) c t _ _ _
  rw [e1]
  obtain ⟨-, -, -, -, -, -, -, -, i0, i1, -⟩ := idx1 t
  funext y
  obtain ⟨r, q, rfl⟩ : ∃ (r : Fin 2048) (q : Fin 256), y = ix2 r q := ⟨y 0, y 1, eq_ix2 y⟩
  have hRlt : 2048 * (t.val / 16) + r.val < 16384 := by have := t.isLt; have hN : cfg1.N = 128 := N_1; omega
  show k1_pay3 (F := Ideal) (iblk1 (V3 m ρ) c 3 t) ((outsAt1 (V3 m ρ) c t.val t.isLt).2) (iblk1 (V3 m ρ) c 2 t) (ix2 r q)
    = Cert.Gcn.out _ _ _ _ (((cfg1.win 4).blk t).view.emb (ix2 r q))
  rw [out_block_apply m ρ c t h15 r q ⟨2048 * (t.val / 16) + r.val, hRlt⟩ rfl]
  have hemb : ((cfg1.win 4).blk t).view.emb (ix2 r q) = ix2 (⟨2048 * (t.val / 16) + r.val, hRlt⟩ : Fin 16384) q := by
    funext a; apply Fin.ext
    match a with
    | ⟨0, _⟩ => show win1_4.index t (0 : Fin 2) * 2048 + 1 * r.val = 2048 * (t.val / 16) + r.val; omega
    | ⟨1, _⟩ => show win1_4.index t (1 : Fin 2) * 256 + 1 * q.val = q.val; omega
  rw [hemb]
  rfl

/-- An index of the result array is in point `t`'s block iff each coordinate is in the block's range. -/
theorem mem_blk4 (t : Fin cfg1.N) (i : S16384x256.Idx) :
    i ∈ ((cfg1.win 4).blk t).view.set ↔ ∀ a : Fin 2, win1_4.index t a * S2048x256.size a ≤ (i a).val ∧ (i a).val < win1_4.index t a * S2048x256.size a + S2048x256.size a := by
  show i ∈ ((View.whole main_v11).slice (win1_4.rect t)).set ↔ _
  rw [View.set_slice_whole, Rect.mem_set_unit]
  exact Iff.rfl

/-- The eight flushed blocks tile the result array. -/
theorem cover4 (i : S16384x256.Idx) : ∃ t : Fin cfg1.N, (cfg1.win 4).flush t = true ∧ i ∈ ((cfg1.win 4).blk t).view.set := by
  have hi0 : (i 0).val < 16384 := (i 0).isLt
  have hi1 : (i 1).val < 256 := (i 1).isLt
  have hN : cfg1.N = 128 := N_1
  refine ⟨⟨16 * ((i 0).val / 2048) + 15, by omega⟩, (flush1_4 _).mpr (by show (16 * ((i 0).val / 2048) + 15) % 16 = 15; omega), ?_⟩
  rw [mem_blk4]
  obtain ⟨-, -, -, -, -, -, -, -, i0, i1, -⟩ := idx1 ⟨16 * ((i 0).val / 2048) + 15, by omega⟩
  intro a
  match a with
  | ⟨0, _⟩ =>
    show win1_4.index _ (0 : Fin 2) * 2048 ≤ (i 0).val ∧ (i 0).val < win1_4.index _ (0 : Fin 2) * 2048 + 2048
    rw [i0]; show (16 * ((i 0).val / 2048) + 15) / 16 * 2048 ≤ (i 0).val ∧ (i 0).val < (16 * ((i 0).val / 2048) + 15) / 16 * 2048 + 2048; omega
  | ⟨1, _⟩ =>
    show win1_4.index _ (1 : Fin 2) * 256 ≤ (i 1).val ∧ (i 1).val < win1_4.index _ (1 : Fin 2) * 256 + 256
    rw [i1]; omega

/-- THE RESULT ARRAY after the run is the layer's output. -/
theorem final4 : (dat1 (V3 m ρ) c).arrAt 4 cfg1.N
    = Cert.Gcn.out (aX m c) (aA m c) (aW m c) (aB m c) :=
  (dat1 (V3 m ρ) c).arrAt_eq_of_cover 4 _ (fun t hf => flushed4_eq m ρ c t hf) (cover4)

end Cert.KernelIdeal.Fr

end
-- ==== Proof.lean ====
/-
  The certificate of a graph-convolution layer computed by two tiled kernels against its plain reference.

  The layer: with `h = x·Wᵀ + b` and the degree scale `d i = rsqrt (∑ j, A i j + 1)` (a row sum of `A + I`), the output
  at `(i, c)` is `∑ j, (((A + I) i j · d i) · d j) · h j c` — the reference's arrangement — which equals
  `d i · (∑ j, A i j · (d j · h j c)) + (d i · d i) · h i c`, the self-loop's term split off — the kernels' arrangement —
  wherever every `d i` is a real number. The precondition says the arguments are finite and every row sum of `A + I` is
  positive, so every `d i` is a positive real and the two arrangements agree by distributivity over the reals.

  The three frames: both kernel programs (the word-level one and the one read on the extended reals) run their two regions
  and ten host operations to the end without a fault and leave the four arguments as launched (the region by region run of
  `K/Main` and `KI/Main`); the reference's frame is its run with the result dropped. Nothing was rewritten between the
  word-level program and its reading on the extended reals, so that claim is trivial. The algebraic claim puts the two
  runs side by side: the kernels' result array is `Cert.Gcn.out` of the arguments (`KI/Value`), the reference's result is
  the same function of arguments that agree (`RefBridge`, under the precondition).
-/
import proofs.«110735_j22325240004644_2_alg».proof.Defs
import proofs.«110735_j22325240004644_2_alg».proof.Proof.Gen.Kernel
import proofs.«110735_j22325240004644_2_alg».proof.Proof.Gen.KernelIdeal
import proofs.«110735_j22325240004644_2_alg».proof.Proof.Gen.ReferenceIdeal
import proofs.«110735_j22325240004644_2_alg».proof.Proof.Gen.Pre_finite_inputs
import proofs.«110735_j22325240004644_2_alg».proof.Proof.Gen.ReferenceIdeal.Run
import proofs.«110735_j22325240004644_2_alg».proof.Proof.Gen.ReferenceIdeal.Read
import proofs.«110735_j22325240004644_2_alg».proof.Proof.K.Main
import proofs.«110735_j22325240004644_2_alg».proof.Proof.KI.Value
import proofs.«110735_j22325240004644_2_alg».proof.Proof.RefBridge

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernels' result array ends at the layer's output of the arguments, and the reference's
    result at the same function of arguments that agree. -/
theorem algebraic : Cert.algebraic_KernelIdeal_ReferenceIdeal := by
  intro m ρ m' ρ' hpre hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Fr.final4 m ρ c), (h c).2⟩) (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v30_eq _ _ _ _).trans ?_
    rw [(hagree c).1, (hagree c).2.1, (hagree c).2.2.1, (hagree c).2.2.2]
    exact Cert.Gcn.ref_eq_out _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
